-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x1024 : Shape := ⟨3, ![32, 128, 1024]⟩
abbrev S65536x1024 : Shape := ⟨2, ![65536, 1024]⟩
abbrev S65536 : Shape := ⟨1, ![65536]⟩
abbrev S262144 : Shape := ⟨1, ![262144]⟩
abbrev S512 : Shape := ⟨1, ![512]⟩
abbrev S2x262144 : Shape := ⟨2, ![2, 262144]⟩
abbrev S_ : Shape := ⟨0, ![]⟩

class Facts : Prop where
  bcast_S_S32x128x1024 : S_.BroadcastsInDim S32x128x1024 (![] : Fin 0 → Fin S32x128x1024.rank)
  reducesTo_S32x128x1024_S_d0_1_2 : S32x128x1024.ReducesTo [0, 1, 2] S_
  h_S_ : 0 < S_.numel
  bcast_S_S65536x1024 : S_.BroadcastsInDim S65536x1024 (![] : Fin 0 → Fin S65536x1024.rank)
  reducesTo_S65536x1024_S_d0_1 : S65536x1024.ReducesTo [0, 1] S_
  bcast_S_S65536 : S_.BroadcastsInDim S65536 (![] : Fin 0 → Fin S65536.rank)
  reducesTo_S65536_S_d0 : S65536.ReducesTo [0] S_
  bcast_S_S262144 : S_.BroadcastsInDim S262144 (![] : Fin 0 → Fin S262144.rank)
  reducesTo_S262144_S_d0 : S262144.ReducesTo [0] S_

variable [Facts]

def fn_part1 {F : FTy → Type} [FloatOps F] (main_v13 : IVec S_ 1) (main_v16 : IVec S262144 1) : IVec S_ 1 :=
  let main_c_5 : IVec S_ 1 := constantI S_ 1 1#1
  let main_v17 : IVec S_ 1 := (fun x v => Host.reduce IntOp.andi x v reducesTo_S262144_S_d0 h_S_) main_v16 main_c_5
  let main_v18 : IVec S_ 1 := andi main_v13 main_v17
  main_v18

def fn {F : FTy → Type} [FloatOps F] (main_arg0 : FVec F S32x128x1024 .f32) (main_arg1 : FVec F S65536x1024 .f32) (main_arg2 : FVec F S65536 .f32) (main_arg3 : FVec F S262144 .f32) (main_arg4 : IVec S512 32) (main_arg5 : IVec S512 32) (main_arg6 : IVec S2x262144 32) : IVec S_ 1 :=
  let main_v0 : FVec F S32x128x1024 .f32 := Host.absf main_arg0
  let main_cst : FVec F S_ .f32 := constant S_ .f32 0x7F800000#32
  let main_v1 : FVec F S32x128x1024 .f32 := broadcastInDim S32x128x1024 ![] bcast_S_S32x128x1024 main_cst
  let main_v2 : IVec S32x128x1024 1 := cmpf .olt main_v0 main_v1
  let main_c : IVec S_ 1 := constantI S_ 1 1#1
  let main_v3 : IVec S_ 1 := (fun x v => Host.reduce IntOp.andi x v reducesTo_S32x128x1024_S_d0_1_2 h_S_) main_v2 main_c
  let main_v4 : FVec F S65536x1024 .f32 := Host.absf main_arg1
  let main_cst_0 : FVec F S_ .f32 := constant S_ .f32 0x7F800000#32
  let main_v5 : FVec F S65536x1024 .f32 := broadcastInDim S65536x1024 ![] bcast_S_S65536x1024 main_cst_0
  let main_v6 : IVec S65536x1024 1 := cmpf .olt main_v4 main_v5
  let main_c_1 : IVec S_ 1 := constantI S_ 1 1#1
  let main_v7 : IVec S_ 1 := (fun x v => Host.reduce IntOp.andi x v reducesTo_S65536x1024_S_d0_1 h_S_) main_v6 main_c_1
  let main_v8 : IVec S_ 1 := andi main_v3 main_v7
  let main_v9 : FVec F S65536 .f32 := Host.absf main_arg2
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  let main_v14 : FVec F S262144 .f32 := Host.absf main_arg3
  let main_cst_4 : FVec F S_ .f32 := constant S_ .f32 0x7F800000#32
  let main_v15 : FVec F S262144 .f32 := broadcastInDim S262144 ![] bcast_S_S262144 main_cst_4
  let main_v16 : IVec S262144 1 := cmpf .olt main_v14 main_v15
  fn_part1 (F := F) main_v13 main_v16
-- ==== Kernel.lean ====
abbrev S32x128x1024 : Shape := ⟨3, ![32, 128, 1024]⟩
abbrev S65536x1024 : Shape := ⟨2, ![65536, 1024]⟩
abbrev S65536 : Shape := ⟨1, ![65536]⟩
abbrev S262144 : Shape := ⟨1, ![262144]⟩
abbrev S512 : Shape := ⟨1, ![512]⟩
abbrev S2x262144 : Shape := ⟨2, ![2, 262144]⟩
abbrev S_ : Shape := ⟨0, ![]⟩
abbrev S512x1 : Shape := ⟨2, ![512, 1]⟩
abbrev S512x2 : Shape := ⟨2, ![512, 2]⟩
abbrev S512x1024 : Shape := ⟨2, ![512, 1024]⟩
abbrev S1024 : Shape := ⟨1, ![1024]⟩
abbrev S1x1024 : Shape := ⟨2, ![1, 1024]⟩
abbrev S65536x1 : Shape := ⟨2, ![65536, 1]⟩
abbrev S65536x512 : Shape := ⟨2, ![65536, 512]⟩
abbrev S1024x1024 : Shape := ⟨2, ![1024, 1024]⟩
abbrev S1024x1 : Shape := ⟨2, ![1024, 1]⟩
abbrev S1024x512 : Shape := ⟨2, ![1024, 512]⟩
abbrev S1x262144 : Shape := ⟨2, ![1, 262144]⟩
abbrev S262144x1 : Shape := ⟨2, ![262144, 1]⟩
abbrev S262144x512 : Shape := ⟨2, ![262144, 512]⟩
abbrev S512x65536 : Shape := ⟨2, ![512, 65536]⟩

abbrev nBuf : Space → Nat
  | .hbm => 88
  | .vmem => 7
  | .smem => 0
  | _ => 0

abbrev bufTy : (tb : Table) → Fin (tcTables nBuf tb) → BufTy
  | .hbm, ⟨0, _⟩ => ⟨S32x128x1024, .f32⟩
  | .hbm, ⟨1, _⟩ => ⟨S65536x1024, .f32⟩
  | .hbm, ⟨2, _⟩ => ⟨S65536, .f32⟩
  | .hbm, ⟨3, _⟩ => ⟨S262144, .f32⟩
  | .hbm, ⟨4, _⟩ => ⟨S512, .i32⟩
  | .hbm, ⟨5, _⟩ => ⟨S512, .i32⟩
  | .hbm, ⟨6, _⟩ => ⟨S2x262144, .i32⟩
  | .hbm, ⟨7, _⟩ => ⟨S_, .i32⟩
  | .hbm, ⟨8, _⟩ => ⟨S512, .i32⟩
  | .hbm, ⟨9, _⟩ => ⟨S512, .i1⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S512, .i32⟩
  | .hbm, ⟨21, _⟩ => ⟨S512x1, .i32⟩
  | .hbm, ⟨22, _⟩ => ⟨S512x1, .i32⟩
  | .hbm, ⟨23, _⟩ => ⟨S512x2, .i32⟩
  | .hbm, ⟨24, _⟩ => ⟨S512x1024, .f32⟩
  | .hbm, ⟨25, _⟩ => ⟨S_, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S_, .i32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S512x1024, .f32⟩
  | .hbm, ⟨38, _⟩ => ⟨S512x1024, .f32⟩
  | .hbm, ⟨39, _⟩ => ⟨S512x1024, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S1024, .f32⟩
  | .hbm, ⟨47, _⟩ => ⟨S_, .f32⟩
  | .hbm, ⟨48, _⟩ => ⟨S_, .i1⟩
  | .hbm, ⟨49, _⟩ => ⟨S_, .f32⟩
  | .hbm, ⟨50, _⟩ => ⟨S_, .f32⟩
  | .hbm, ⟨51, _⟩ => ⟨S1024, .f32⟩
  | .hbm, ⟨52, _⟩ => ⟨S1024, .f32⟩
  | .hbm, ⟨53, _⟩ => ⟨S1x1024, .f32⟩
  | .hbm, ⟨54, _⟩ => ⟨S512x1024, .f32⟩
  | .hbm, ⟨55, _⟩ => ⟨S512x1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S1x1024, .f32⟩
  | .hbm, ⟨61, _⟩ => ⟨S512x1024, .f32⟩
  | .hbm, ⟨62, _⟩ => ⟨S512x1024, .f32⟩
  | .hbm, ⟨63, _⟩ => ⟨S512x1024, .bf16⟩
  | .hbm, ⟨64, _⟩ => ⟨S65536x1, .f32⟩
  | .hbm, ⟨65, _⟩ => ⟨S65536x512, .f32⟩
  | .hbm, ⟨66, _⟩ => ⟨S1x262144, .i32⟩
  | .hbm, ⟨67, _⟩ => ⟨S262144, .i32⟩
  | .hbm, ⟨68, _⟩ => ⟨S1x262144, .i32⟩
  | .hbm, ⟨69, _⟩ => ⟨S262144, .i32⟩
  | .hbm, ⟨70, _⟩ => ⟨S_, .i32⟩
  | .hbm, ⟨71, _⟩ => ⟨S262144, .i32⟩
  | .hbm, ⟨72, _⟩ => ⟨S262144, .i1⟩
  | .hbm, ⟨73, _⟩ => ⟨S_, .i32⟩
  | .hbm, ⟨74, _⟩ => ⟨S262144, .i32⟩
  | .hbm, ⟨75, _⟩ => ⟨S262144, .i32⟩
  | .hbm, ⟨76, _⟩ => ⟨S262144, .i32⟩
  | .hbm, ⟨77, _⟩ => ⟨S262144x1, .i32⟩
  | .hbm, ⟨78, _⟩ => ⟨S262144x512, .f32⟩
  | .hbm, ⟨79, _⟩ => ⟨S262144x1, .f32⟩
  | .hbm, ⟨80, _⟩ => ⟨S262144x512, .f32⟩
  | .hbm, ⟨81, _⟩ => ⟨S262144x512, .f32⟩
  | .hbm, ⟨82, _⟩ => ⟨S_, .f32⟩
  | .hbm, ⟨83, _⟩ => ⟨S65536x512, .f32⟩
  | .hbm, ⟨84, _⟩ => ⟨S262144x1, .i32⟩
  | .hbm, ⟨85, _⟩ => ⟨S65536x512, .f32⟩
  | .hbm, ⟨86, _⟩ => ⟨S65536x512, .f32⟩
  | .hbm, ⟨87, _⟩ => ⟨S512x65536, .f32⟩
  | .local _ .vmem, ⟨0, _⟩ => ⟨S512x1024, .bf16⟩
  | .local _ .vmem, ⟨1, _⟩ => ⟨S1024x1024, .f32⟩
  | .local _ .vmem, ⟨2, _⟩ => ⟨S1024x1024, .f32⟩
  | .local _ .vmem, ⟨3, _⟩ => ⟨S1024x1, .f32⟩
  | .local _ .vmem, ⟨4, _⟩ => ⟨S1024x1, .f32⟩
  | .local _ .vmem, ⟨5, _⟩ => ⟨S1024x512, .f32⟩
  | .local _ .vmem, ⟨6, _⟩ => ⟨S1024x512, .f32⟩
  | _, _ => ⟨S32x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_cst_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_cst_1 : Ref sig .tc := ⟨.hbm, 41, rfl⟩
abbrev main_call0_v8 : Ref sig .tc := ⟨.hbm, 42, rfl⟩
abbrev main_call0_cst_2 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_cst_3 : Ref sig .tc := ⟨.hbm, 47, rfl⟩
abbrev main_call0_v12 : Ref sig .tc := ⟨.hbm, 48, rfl⟩
abbrev main_call0_cst_4 : Ref sig .tc := ⟨.hbm, 49, rfl⟩
abbrev main_call0_call0_v0 : Ref sig .tc := ⟨.hbm, 50, rfl⟩
abbrev main_call0_call0_v1 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_cst_5 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_c_6 : Ref sig .tc := ⟨.hbm, 70, rfl⟩
abbrev main_v34 : Ref sig .tc := ⟨.hbm, 71, rfl⟩
abbrev main_v35 : Ref sig .tc := ⟨.hbm, 72, rfl⟩
abbrev main_c_7 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_8 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S512 : S_.BroadcastsInDim S512 (![] : Fin 0 → Fin S512.rank)
  bcast_S512_S512x1_0 : S512.BroadcastsInDim S512x1 (![0] : Fin 1 → Fin S512x1.rank)
  concatenates_S512x1_S512x1_S512x2_d1 : Shape.Concatenates [S512x1, S512x1] S512x2 1
  reducesTo_S512x1024_S1024_d0 : S512x1024.ReducesTo [0] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S1x1024_S512x1024_0_1 : S1x1024.BroadcastsInDim S512x1024 (![0, 1] : Fin 2 → Fin S512x1024.rank)
  bitsLt_bf16_f32 : FTy.bits .bf16 < FTy.bits .f32
  bcast_S65536_S65536x1_0 : S65536.BroadcastsInDim S65536x1 (![0] : Fin 1 → Fin S65536x1.rank)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  inb_S1024x512_S1024x512_0_0 : ∀ a, (![0, 0] : Fin 2 → Nat) a + S1024x512.size a ≤ S1024x512.size a
  h_S1024x512 : 0 < S1024x512.numel
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x512_0_1 : S262144x1.BroadcastsInDim S262144x512 (![0, 1] : Fin 2 → Fin S262144x512.rank)
  bcast_S_S65536x512 : S_.BroadcastsInDim S65536x512 (![] : Fin 0 → Fin S65536x512.rank)
  transposes_S65536x512_S512x65536_1_0 : S65536x512.Transposes [1, 0] S512x65536
  gather_S32x128x1024_S512x2_S512x1024_1_01_n_n_01_1_111024_wf : GatherDims.WF S32x128x1024 S512x2 S512x1024 [1] [0, 1] [] [0, 1] [] 1 ![1, 1, 1024]
  dot_S1024x1024_S512x1024_S1024x512_1_1_0_0_n_n_wf : DotDims.WF S1024x1024 S512x1024 S1024x512 [1] [1] [0] [0] [] []
  gather_S65536x512_S262144x1_S262144x512_1_0_n_n_0_1_1512_wf : GatherDims.WF S65536x512 S262144x1 S262144x512 [1] [0] [] [0] [] 1 ![1, 512]
  scatter_S65536x512_S262144x1_S262144x512_1_0_0_1_wf : ScatterDims.WF S65536x512 S262144x1 S262144x512 [1] [0] [0] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x1024.size a
  hwx0_0 : ∀ i : grid0.Coords, EltTy.bits .bf16 = 32 ∨ (Rect.block (s := S512x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S65536x1024.size a
  hwx0_1 : ∀ i : grid0.Coords, EltTy.bits .f32 = 32 ∨ (Rect.block (s := S65536x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S65536x1.size a
  hwx0_2 : ∀ i : grid0.Coords, EltTy.bits .f32 = 32 ∨ (Rect.block (s := S65536x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S65536x512.size a
  hwx0_3 : ∀ i : grid0.Coords, EltTy.bits .f32 = 32 ∨ (Rect.block (s := S65536x512) S1024x512.size (cc0_transform_3 i) (hinb0_3 i)).WholeWords (EltTy.packing .f32)

variable [Facts₀]

def gather_S32x128x1024_S512x2_S512x1024_1_01_n_n_01_1_111024 : GatherDims S32x128x1024 S512x2 S512x1024 where
  offsetDims := [1]
  collapsedSliceDims := [0, 1]
  operandBatchingDims := []
  startIndicesBatchingDims := []
  startIndexMap := [0, 1]
  indexVectorDim := 1
  sliceSizes := ![1, 1, 1024]
  wf := gather_S32x128x1024_S512x2_S512x1024_1_01_n_n_01_1_111024_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def gather_S65536x512_S262144x1_S262144x512_1_0_n_n_0_1_1512 : GatherDims S65536x512 S262144x1 S262144x512 where
  offsetDims := [1]
  collapsedSliceDims := [0]
  operandBatchingDims := []
  startIndicesBatchingDims := []
  startIndexMap := [0]
  indexVectorDim := 1
  sliceSizes := ![1, 512]
  wf := gather_S65536x512_S262144x1_S262144x512_1_0_n_n_0_1_1512_wf
def scatter_S65536x512_S262144x1_S262144x512_1_0_0_1 : ScatterDims S65536x512 S262144x1 S262144x512 where
  updateWindowDims := [1]
  insertedWindowDims := [0]
  scatterDimsToOperandDims := [0]
  indexVectorDim := 1
  wf := scatter_S65536x512_S262144x1_S262144x512_1_0_0_1_wf

abbrev win0_0 : Pipeline.Window sig grid0 :=
  Pipeline.Window.ofSpec (Memref.whole main_v27) S512x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x128x1024 : Shape := ⟨3, ![32, 128, 1024]⟩
abbrev S65536x1024 : Shape := ⟨2, ![65536, 1024]⟩
abbrev S65536 : Shape := ⟨1, ![65536]⟩
abbrev S262144 : Shape := ⟨1, ![262144]⟩
abbrev S512 : Shape := ⟨1, ![512]⟩
abbrev S2x262144 : Shape := ⟨2, ![2, 262144]⟩
abbrev S_ : Shape := ⟨0, ![]⟩
abbrev S512x1 : Shape := ⟨2, ![512, 1]⟩
abbrev S512x2 : Shape := ⟨2, ![512, 2]⟩
abbrev S512x1024 : Shape := ⟨2, ![512, 1024]⟩
abbrev S1024 : Shape := ⟨1, ![1024]⟩
abbrev S1x1024 : Shape := ⟨2, ![1, 1024]⟩
abbrev S1024x65536 : Shape := ⟨2, ![1024, 65536]⟩
abbrev S512x65536 : Shape := ⟨2, ![512, 65536]⟩
abbrev S1x65536 : Shape := ⟨2, ![1, 65536]⟩
abbrev S1x262144 : Shape := ⟨2, ![1, 262144]⟩
abbrev S65536x512 : Shape := ⟨2, ![65536, 512]⟩
abbrev S262144x1 : Shape := ⟨2, ![262144, 1]⟩
abbrev S262144x512 : Shape := ⟨2, ![262144, 512]⟩

abbrev nBuf : Space → Nat
  | .hbm => 100
  | .vmem => 0
  | .smem => 0
  | _ => 0

abbrev bufTy : (tb : Table) → Fin (tcTables nBuf tb) → BufTy
  | .hbm, ⟨0, _⟩ => ⟨S32x128x1024, .f32⟩
  | .hbm, ⟨1, _⟩ => ⟨S65536x1024, .f32⟩
  | .hbm, ⟨2, _⟩ => ⟨S65536, .f32⟩
  | .hbm, ⟨3, _⟩ => ⟨S262144, .f32⟩
  | .hbm, ⟨4, _⟩ => ⟨S512, .i32⟩
  | .hbm, ⟨5, _⟩ => ⟨S512, .i32⟩
  | .hbm, ⟨6, _⟩ => ⟨S2x262144, .i32⟩
  | .hbm, ⟨7, _⟩ => ⟨S_, .i32⟩
  | .hbm, ⟨8, _⟩ => ⟨S512, .i32⟩
  | .hbm, ⟨9, _⟩ => ⟨S512, .i1⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S512, .i32⟩
  | .hbm, ⟨21, _⟩ => ⟨S512x1, .i32⟩
  | .hbm, ⟨22, _⟩ => ⟨S512x1, .i32⟩
  | .hbm, ⟨23, _⟩ => ⟨S512x2, .i32⟩
  | .hbm, ⟨24, _⟩ => ⟨S512x1024, .f32⟩
  | .hbm, ⟨25, _⟩ => ⟨S_, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S_, .i32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S512x1024, .f32⟩
  | .hbm, ⟨38, _⟩ => ⟨S512x1024, .f32⟩
  | .hbm, ⟨39, _⟩ => ⟨S512x1024, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S1024, .f32⟩
  | .hbm, ⟨47, _⟩ => ⟨S_, .f32⟩
  | .hbm, ⟨48, _⟩ => ⟨S_, .i1⟩
  | .hbm, ⟨49, _⟩ => ⟨S_, .f32⟩
  | .hbm, ⟨50, _⟩ => ⟨S_, .f32⟩
  | .hbm, ⟨51, _⟩ => ⟨S1024, .f32⟩
  | .hbm, ⟨52, _⟩ => ⟨S1024, .f32⟩
  | .hbm, ⟨53, _⟩ => ⟨S1x1024, .f32⟩
  | .hbm, ⟨54, _⟩ => ⟨S512x1024, .f32⟩
  | .hbm, ⟨55, _⟩ => ⟨S512x1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S1x1024, .f32⟩
  | .hbm, ⟨61, _⟩ => ⟨S512x1024, .f32⟩
  | .hbm, ⟨62, _⟩ => ⟨S512x1024, .f32⟩
  | .hbm, ⟨63, _⟩ => ⟨S1024x65536, .f32⟩
  | .hbm, ⟨64, _⟩ => ⟨S512x65536, .f32⟩
  | .hbm, ⟨65, _⟩ => ⟨S1x65536, .f32⟩
  | .hbm, ⟨66, _⟩ => ⟨S512x65536, .f32⟩
  | .hbm, ⟨67, _⟩ => ⟨S512x65536, .f32⟩
  | .hbm, ⟨68, _⟩ => ⟨S512x65536, .f32⟩
  | .hbm, ⟨69, _⟩ => ⟨S512x65536, .f32⟩
  | .hbm, ⟨70, _⟩ => ⟨S_, .f32⟩
  | .hbm, ⟨71, _⟩ => ⟨S512x65536, .f32⟩
  | .hbm, ⟨72, _⟩ => ⟨S512x65536, .f32⟩
  | .hbm, ⟨73, _⟩ => ⟨S_, .f32⟩
  | .hbm, ⟨74, _⟩ => ⟨S512x65536, .f32⟩
  | .hbm, ⟨75, _⟩ => ⟨S512x65536, .f32⟩
  | .hbm, ⟨76, _⟩ => ⟨S512x65536, .f32⟩
  | .hbm, ⟨77, _⟩ => ⟨S1x262144, .i32⟩
  | .hbm, ⟨78, _⟩ => ⟨S262144, .i32⟩
  | .hbm, ⟨79, _⟩ => ⟨S1x262144, .i32⟩
  | .hbm, ⟨80, _⟩ => ⟨S262144, .i32⟩
  | .hbm, ⟨81, _⟩ => ⟨S65536x512, .f32⟩
  | .hbm, ⟨82, _⟩ => ⟨S_, .i32⟩
  | .hbm, ⟨83, _⟩ => ⟨S262144, .i32⟩
  | .hbm, ⟨84, _⟩ => ⟨S262144, .i1⟩
  | .hbm, ⟨85, _⟩ => ⟨S_, .i32⟩
  | .hbm, ⟨86, _⟩ => ⟨S262144, .i32⟩
  | .hbm, ⟨87, _⟩ => ⟨S262144, .i32⟩
  | .hbm, ⟨88, _⟩ => ⟨S262144, .i32⟩
  | .hbm, ⟨89, _⟩ => ⟨S262144x1, .i32⟩
  | .hbm, ⟨90, _⟩ => ⟨S262144x512, .f32⟩
  | .hbm, ⟨91, _⟩ => ⟨S262144x1, .f32⟩
  | .hbm, ⟨92, _⟩ => ⟨S262144x512, .f32⟩
  | .hbm, ⟨93, _⟩ => ⟨S262144x512, .f32⟩
  | .hbm, ⟨94, _⟩ => ⟨S_, .f32⟩
  | .hbm, ⟨95, _⟩ => ⟨S65536x512, .f32⟩
  | .hbm, ⟨96, _⟩ => ⟨S262144x1, .i32⟩
  | .hbm, ⟨97, _⟩ => ⟨S65536x512, .f32⟩
  | .hbm, ⟨98, _⟩ => ⟨S512x65536, .f32⟩
  | .hbm, ⟨99, _⟩ => ⟨S512x65536, .f32⟩
  | _, _ => ⟨S32x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_cst_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_cst_1 : Ref sig .tc := ⟨.hbm, 41, rfl⟩
abbrev main_call0_v8 : Ref sig .tc := ⟨.hbm, 42, rfl⟩
abbrev main_call0_cst_2 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_cst_3 : Ref sig .tc := ⟨.hbm, 47, rfl⟩
abbrev main_call0_v12 : Ref sig .tc := ⟨.hbm, 48, rfl⟩
abbrev main_call0_cst_4 : Ref sig .tc := ⟨.hbm, 49, rfl⟩
abbrev main_call0_call0_v0 : Ref sig .tc := ⟨.hbm, 50, rfl⟩
abbrev main_call0_call0_v1 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_cst_5 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_c_6 : Ref sig .tc := ⟨.hbm, 82, rfl⟩
abbrev main_v38 : Ref sig .tc := ⟨.hbm, 83, rfl⟩
abbrev main_v39 : Ref sig .tc := ⟨.hbm, 84, rfl⟩
abbrev main_c_7 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_cst_8 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S512x1_0 : S512.BroadcastsInDim S512x1 (![0] : Fin 1 → Fin S512x1.rank)
  concatenates_S512x1_S512x1_S512x2_d1 : Shape.Concatenates [S512x1, S512x1] S512x2 1
  reducesTo_S512x1024_S1024_d0 : S512x1024.ReducesTo [0] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S1x1024_S512x1024_0_1 : S1x1024.BroadcastsInDim S512x1024 (![0, 1] : Fin 2 → Fin S512x1024.rank)
  transposes_S65536x1024_S1024x65536_1_0 : S65536x1024.Transposes [1, 0] S1024x65536
  bcast_S65536_S1x65536_1 : S65536.BroadcastsInDim S1x65536 (![1] : Fin 1 → Fin S1x65536.rank)
  bcast_S1x65536_S512x65536_0_1 : S1x65536.BroadcastsInDim S512x65536 (![0, 1] : Fin 2 → Fin S512x65536.rank)
  bcast_S_S512x65536 : S_.BroadcastsInDim S512x65536 (![] : Fin 0 → Fin S512x65536.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  transposes_S512x65536_S65536x512_1_0 : S512x65536.Transposes [1, 0] S65536x512
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x512_0_1 : S262144x1.BroadcastsInDim S262144x512 (![0, 1] : Fin 2 → Fin S262144x512.rank)
  bcast_S_S65536x512 : S_.BroadcastsInDim S65536x512 (![] : Fin 0 → Fin S65536x512.rank)
  transposes_S65536x512_S512x65536_1_0 : S65536x512.Transposes [1, 0] S512x65536
  gather_S32x128x1024_S512x2_S512x1024_1_01_n_n_01_1_111024_wf : GatherDims.WF S32x128x1024 S512x2 S512x1024 [1] [0, 1] [] [0, 1] [] 1 ![1, 1, 1024]
  dot_S512x1024_S1024x65536_S512x65536_1_0_0_1_n_n_wf : DotDims.WF S512x1024 S1024x65536 S512x65536 [1] [0] [0] [1] [] []
  gather_S65536x512_S262144x1_S262144x512_1_0_n_n_0_1_1512_wf : GatherDims.WF S65536x512 S262144x1 S262144x512 [1] [0] [] [0] [] 1 ![1, 512]
  scatter_S65536x512_S262144x1_S262144x512_1_0_0_1_wf : ScatterDims.WF S65536x512 S262144x1 S262144x512 [1] [0] [0] 1

variable [Facts₀]

def gather_S32x128x1024_S512x2_S512x1024_1_01_n_n_01_1_111024 : GatherDims S32x128x1024 S512x2 S512x1024 where
  offsetDims := [1]
  collapsedSliceDims := [0, 1]
  operandBatchingDims := []
  startIndicesBatchingDims := []
  startIndexMap := [0, 1]
  indexVectorDim := 1
  sliceSizes := ![1, 1, 1024]
  wf := gather_S32x128x1024_S512x2_S512x1024_1_01_n_n_01_1_111024_wf
def dot_S512x1024_S1024x65536_S512x65536_1_0_0_1_n_n : DotDims S512x1024 S1024x65536 S512x65536 where
  lhsContracting := [1]
  rhsContracting := [0]
  lhsNonContracting := [0]
  rhsNonContracting := [1]
  lhsBatch := []
  rhsBatch := []
  wf := dot_S512x1024_S1024x65536_S512x65536_1_0_0_1_n_n_wf
def gather_S65536x512_S262144x1_S262144x512_1_0_n_n_0_1_1512 : GatherDims S65536x512 S262144x1 S262144x512 where
  offsetDims := [1]
  collapsedSliceDims := [0]
  operandBatchingDims := []
  startIndicesBatchingDims := []
  startIndexMap := [0]
  indexVectorDim := 1
  sliceSizes := ![1, 512]
  wf := gather_S65536x512_S262144x1_S262144x512_1_0_n_n_0_1_1512_wf
def scatter_S65536x512_S262144x1_S262144x512_1_0_0_1 : ScatterDims S65536x512 S262144x1 S262144x512 where
  updateWindowDims := [1]
  insertedWindowDims := [0]
  scatterDimsToOperandDims := [0]
  indexVectorDim := 1
  wf := scatter_S65536x512_S262144x1_S262144x512_1_0_0_1_wf

class Facts : Prop extends Facts₀ where

variable [Facts]
-- ==== Proof.SwishBlock.lean ====
/-
  One block of the kernel's output, entry by entry, on the extended reals.

  The body takes a [1024, 1024] tile `w` of the weight matrix, the whole normalised activations `h` of shape
  [512, 1024], and the tile's bias column `b` of shape [1024, 1]; it contracts `w` and `h` along their common
  feature axis, adds the bias along the rows, and applies z ↦ z · σ(z) with σ z = 1 / (1 + e^(-z)).
  On the extended reals a change of float format is the identity and the matrix product into a zero accumulator is
  the plain finite sum, so entry (p, q) of the block is
      z · σ z   with   z = Σ_d w(p, d) · h(q, d) + b(p, 0).
-/
import proofs.«158608_j81037442941606_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Swish

open Cert.KernelIdeal Cert.KernelIdeal.Gen Idealize.ShloMosaic Idealize.ShloMosaic.ValueIdx

/-- z ↦ z · σ z on the extended reals. -/
def act (z : EReal) : EReal := z * Ideal.logistic z

/-- The product's dimension numbers: both operands are contracted along their second axis. -/
abbrev dotK := dot_S1024x1024_S512x1024_S1024x512_1_1_0_0_n_n

/-! ## The operand indices of the product at an output index -/

/-- The left operand's row is the output's row. -/
theorem lhs_row (i : S1024x512.Idx) (q : dotK.contr.Idx) : (dotK.lhsIdx i q 0).val = (i 0).val := by
  unfold DotDims.lhsIdx
  rw [dif_neg (show ¬(0 : Fin S1024x1024.rank) ∈ dotK.lhsBatch by decide),
    dif_pos (show (0 : Fin S1024x1024.rank) ∈ dotK.lhsNonContracting by decide)]
  rfl

/-- The left operand's column is the summation index. -/
theorem lhs_col (i : S1024x512.Idx) (q : dotK.contr.Idx) : (dotK.lhsIdx i q 1).val = (q ⟨0, by decide⟩).val :=
  dotK.lhsIdx_val_of_single rfl i q

/-- The right operand's row is the output's column. -/
theorem rhs_row (i : S1024x512.Idx) (q : dotK.contr.Idx) : (dotK.rhsIdx i q 0).val = (i 1).val := by
  unfold DotDims.rhsIdx
  rw [dif_neg (show ¬(0 : Fin S512x1024.rank) ∈ dotK.rhsBatch by decide),
    dif_pos (show (0 : Fin S512x1024.rank) ∈ dotK.rhsNonContracting by decide)]
  rfl

/-- The right operand's column is the summation index. -/
theorem rhs_col (i : S1024x512.Idx) (q : dotK.contr.Idx) : (dotK.rhsIdx i q 1).val = (q ⟨0, by decide⟩).val :=
  dotK.rhsIdx_val_of_single rfl i q

/-- The product into a zero accumulator, at (p, q): the sum over the feature axis of w(p, d) · h(q, d). -/
theorem product_apply (w : FVec Ideal S1024x1024 .bf16) (h : FVec Ideal S512x1024 .bf16) (p : Fin 1024) (q : Fin 512) :
    matmul dotK none w h (constant S1024x512 .f32 0x00000000#32) (ix2 p q)
      = ∑ d : Fin 1024, w (ix2 p d) * h (ix2 q d) := by
  simp only [matmul]
  rw [Ideal.matmul_constant_zero_apply, ← Equiv.sum_comp (contrEquiv1 dotK 1024 rfl rfl).symm]
  refine Finset.sum_congr rfl fun k _ => ?_
  have hk := contrEquiv1_symm_val dotK 1024 rfl rfl k
  have el : dotK.lhsIdx (ix2 p q) ((contrEquiv1 dotK 1024 rfl rfl).symm k) = ix2 p k := funext fun a => Fin.ext (by
    match a with
    | ⟨0, _⟩ => exact lhs_row _ _
    | ⟨1, _⟩ => exact (lhs_col _ _).trans hk)
  have er : dotK.rhsIdx (ix2 p q) ((contrEquiv1 dotK 1024 rfl rfl).symm k) = ix2 q k := funext fun a => Fin.ext (by
    match a with
    | ⟨0, _⟩ => exact rhs_row _ _
    | ⟨1, _⟩ => exact (rhs_col _ _).trans hk)
  rw [el, er]

/-- A column [1024, 1] spread over 512 columns reads, at (p, q), the column's entry p. -/
theorem column_spread_apply (b : FVec Ideal S1024x1 .f32) (hb : S1024x1.Broadcasts S1024x512) (p : Fin 1024) (q : Fin 512) :
    broadcastTo S1024x512 b hb (ix2 p q) = b (ix2 p (0 : Fin 1)) := by
  refine broadcastTo_apply b hb (ix2 p q) (ix2 p (0 : Fin 1)) fun ax => ?_
  match ax with
  | ⟨0, _⟩ => rfl
  | ⟨1, _⟩ => rfl

/-- THE BLOCK, entry by entry. -/
theorem block_apply (h : FVec Ideal S512x1024 .bf16) (w : FVec Ideal S1024x1024 .f32) (b : FVec Ideal S1024x1 .f32)
    (p : Fin 1024) (q : Fin 512) :
    k0_pay1 (F := Ideal) h w b (ix2 p q) = act ((∑ d : Fin 1024, w (ix2 p d) * h (ix2 q d)) + b (ix2 p (0 : Fin 1))) := by
  unfold k0_pay1
  have hz : addf (matmul dotK none (truncf .bf16 w bitsLt_bf16_f32) (shapeCast S512x1024 h shapeCasts_S512x1024_S512x1024)
        (constant S1024x512 .f32 0x00000000#32))
      (broadcastTo S1024x512 (shapeCast S1024x1 b shapeCasts_S1024x1_S1024x1) broadcasts_S1024x1_S1024x512) (ix2 p q)
      = (∑ d : Fin 1024, w (ix2 p d) * h (ix2 q d)) + b (ix2 p (0 : Fin 1)) := by
    rw [addf_apply, shapeCast_self, shapeCast_self, product_apply, column_spread_apply]
    rfl
  show act _ = _
  exact congrArg act hz

end Cert.KernelIdeal.Swish

end
-- ==== Proof.SwishArray.lean ====
/-
  The whole [65536, 512] array the kernel leaves, as one function of the arrays the region finds.

  The grid has 64 points. Point t reads the whole activations, rows 1024·t … 1024·t + 1023 of the weight matrix and of
  the bias column, and writes rows 1024·t … 1024·t + 1023 of the output. So entry (r, n) of the output is
      z · σ z   with   z = Σ_d w(r, d) · h(n, d) + b(r, 0),
  the same formula for every row: each block written back is a block of this one function, and the 64 blocks tile
  the array, so the array ends holding it.
-/
import proofs.«158608_j81037442941606_2_alg».proof.Proof.Gen.KernelIdeal.Frame
import proofs.«158608_j81037442941606_2_alg».proof.Proof.SwishBlock

noncomputable section

namespace Cert.KernelIdeal.Swish

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- Entry (r, n): the activation of row r of the weights against row n of the activations, plus the bias of row r. -/
def entry (h : FVec Ideal S512x1024 .bf16) (w : FVec Ideal S65536x1024 .f32) (b : FVec Ideal S65536x1 .f32)
    (r : Fin 65536) (n : Fin 512) : EReal :=
  act ((∑ d : Fin 1024, w (ix2 r d) * h (ix2 n d)) + b (ix2 r (0 : Fin 1)))

/-- The whole array. -/
def whole (h : FVec Ideal S512x1024 .bf16) (w : FVec Ideal S65536x1024 .f32) (b : FVec Ideal S65536x1 .f32) :
    S65536x512.Idx → EReal :=
  fun i => entry h w b ⟨(i 0).val, (i 0).isLt⟩ ⟨(i 1).val, (i 1).isLt⟩

theorem whole_ix2 (h : FVec Ideal S512x1024 .bf16) (w : FVec Ideal S65536x1024 .f32) (b : FVec Ideal S65536x1 .f32)
    (r : Fin 65536) (n : Fin 512) : whole h w b (ix2 r n) = entry h w b r n := rfl

theorem hz : (![0, 0] : Fin 2 → Nat) = fun _ => 0 := funext fun a => by fin_cases a <;> rfl

/-- Where each window's block sits at point t: the activations' window never moves; the weights', the bias's and the
    output's windows sit at the same block row, in block column 0; there are 64 block rows. -/
theorem idx_facts : ∀ t : Fin cfg0.N, win0_0.index t (0 : Fin 2) = 0
    ∧ win0_0.index t (1 : Fin 2) = 0
    ∧ win0_1.index t (0 : Fin 2) = win0_3.index t (0 : Fin 2)
    ∧ win0_1.index t (1 : Fin 2) = 0
    ∧ win0_2.index t (0 : Fin 2) = win0_3.index t (0 : Fin 2)
    ∧ win0_2.index t (1 : Fin 2) = 0
    ∧ win0_3.index t (1 : Fin 2) = 0
    ∧ win0_3.index t (0 : Fin 2) ≤ 63 :=
  (by decide +kernel : ∀ t : Fin grid0.N, _)

/-- Every block row is some point's. -/
theorem idx_onto : ∀ q0 : Fin 64, ∃ t : Fin cfg0.N, win0_3.index t = ![q0.val, 0] :=
  (by decide +kernel : ∀ q0 : Fin 64, ∃ t : Fin grid0.N, win0_3.index t = ![q0.val, 0])

/-! ## The input blocks, read where the output's block says -/

/-- The activations' block is the whole array. -/
theorem read_act (c : Dev nD) (t : Fin cfg0.N) (n : Fin 512) (d : Fin 1024) :
    iblk m c 0 t (ix2 n d) = V m c main_v27 (ix2 n d) := by
  obtain ⟨e00, e01, e10, e11, e20, e21, e31, hle⟩ := idx_facts t
  show V m c main_v27 (((cfg0.win 0).blk t).view.emb (ix2 n d)) = V m c main_v27 (ix2 n d)
  refine congrArg (V m c main_v27) (funext fun a => Fin.ext ?_)
  match a with
  | ⟨0, _⟩ => show win0_0.index t (0 : Fin 2) * 512 + 1 * n.val = n.val; omega
  | ⟨1, _⟩ => show win0_0.index t (1 : Fin 2) * 1024 + 1 * d.val = d.val; omega

/-- Row p of the weights' block is row r = 1024 · (block row) + p of the weight matrix. -/
theorem read_weight (c : Dev nD) (t : Fin cfg0.N) (p : Fin 1024) (d : Fin 1024) (r : Fin 65536)
    (hr : r.val = win0_3.index t (0 : Fin 2) * 1024 + p.val) :
    iblk m c 1 t (ix2 p d) = V m c main_arg1 (ix2 r d) := by
  obtain ⟨e00, e01, e10, e11, e20, e21, e31, hle⟩ := idx_facts t
  show V m c main_arg1 (((cfg0.win 1).blk t).view.emb (ix2 p d)) = V m c main_arg1 (ix2 r d)
  refine congrArg (V m c main_arg1) (funext fun a => Fin.ext ?_)
  match a with
  | ⟨0, _⟩ => show win0_1.index t (0 : Fin 2) * 1024 + 1 * p.val = r.val; omega
  | ⟨1, _⟩ => show win0_1.index t (1 : Fin 2) * 1024 + 1 * d.val = d.val; omega

/-- Row p of the bias's block is row r of the bias column. -/
theorem read_bias (c : Dev nD) (t : Fin cfg0.N) (p : Fin 1024) (r : Fin 65536)
    (hr : r.val = win0_3.index t (0 : Fin 2) * 1024 + p.val) :
    iblk m c 2 t (ix2 p (0 : Fin 1)) = V m c main_v28 (ix2 r (0 : Fin 1)) := by
  obtain ⟨e00, e01, e10, e11, e20, e21, e31, hle⟩ := idx_facts t
  show V m c main_v28 (((cfg0.win 2).blk t).view.emb (ix2 p (0 : Fin 1))) = V m c main_v28 (ix2 r (0 : Fin 1))
  refine congrArg (V m c main_v28) (funext fun a => Fin.ext ?_)
  match a with
  | ⟨0, _⟩ => show win0_2.index t (0 : Fin 2) * 1024 + 1 * p.val = r.val; omega
  | ⟨1, _⟩ => show win0_2.index t (1 : Fin 2) * 1 + 1 * 0 = 0; omega

/-! ## What a point writes back -/

/-- WHAT POINT t WRITES BACK is block t of the whole array. -/
theorem flushed_eq (c : Dev nD) (t : Fin cfg0.N) :
    (dats m 0 c).flushed 3 t
      = ((cfg0.win 3).blk t).view.read (Elt Ideal) (whole (V m c main_v27) (V m c main_arg1) (V m c main_v28)) := by
  show (cfg0.win 3).cut (grid0.coords t) ((dats m 0 c).after 3 t) = _
  rw [after0_3]
  unfold out0_3
  rw [View.canon_unit_zero hz]
  simp only [View.ld_unit_zero (S := S512x1024) hz, View.ld_unit_zero (S := S1024x1024) hz, View.ld_unit_zero (S := S1024x1) hz]
  obtain ⟨e00, e01, e10, e11, e20, e21, e31, hle⟩ := idx_facts t
  funext j
  obtain ⟨p, q, rfl⟩ : ∃ (p : Fin 1024) (q : Fin 512), j = ix2 p q := ⟨j 0, j 1, eq_ix2 j⟩
  refine (block_apply (iblk m c 0 t) (iblk m c 1 t) (iblk m c 2 t) p q).trans ?_
  have hp := p.isLt
  have hq := q.isLt
  obtain ⟨r, hr⟩ : ∃ r : Fin 65536, r.val = win0_3.index t (0 : Fin 2) * 1024 + p.val := ⟨⟨_, by omega⟩, rfl⟩
  have e3 : ((cfg0.win 3).blk t).view.emb (ix2 p q) = ix2 r q := by
    funext a; apply Fin.ext
    match a with
    | ⟨0, _⟩ => show win0_3.index t (0 : Fin 2) * 1024 + 1 * p.val = r.val; omega
    | ⟨1, _⟩ => show win0_3.index t (1 : Fin 2) * 512 + 1 * q.val = q.val; omega
  rw [View.read_apply, e3, whole_ix2]
  unfold entry
  refine congrArg act ?_
  rw [read_bias m c t p r hr]
  refine congrArg (· + V m c main_v28 (ix2 r (0 : Fin 1))) ?_
  exact Finset.sum_congr rfl fun d _ => by rw [read_weight m c t p d r hr, read_act m c t q d]

/-- An index of the array is in point t's block iff each coordinate is in the block's range on its axis. -/
theorem mem_blk (t : Fin cfg0.N) (i : S65536x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v29).slice (win0_3.rect t)).set ↔ _
  rw [View.set_slice_whole, Rect.mem_set_unit]
  exact Iff.rfl

/-- The 64 blocks tile the array: row r is in block row r / 1024. -/
theorem cover (i : S65536x512.Idx) :
    ∃ t : Fin cfg0.N, (cfg0.win 3).flush t = true ∧ i ∈ ((cfg0.win 3).blk t).view.set := by
  have hi0 : (i 0).val < 65536 := (i 0).isLt
  have hi1 : (i 1).val < 512 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- THE ARRAY after the region: the one function of the arrays the region finds. -/
theorem final (c : Dev nD) :
    (dats m 0 c).arrAt 3 cfg0.N = whole (V m c main_v27) (V m c main_arg1) (V m c main_v28) :=
  (dats m 0 c).arrAt_eq_of_cover 3 (whole (V m c main_v27) (V m c main_arg1) (V m c main_v28))
    (fun t _ => flushed_eq m c t) (cover)

end Cert.KernelIdeal.Swish

end
-- ==== Proof.KernelHost.lean ====
/-
  The kernel program's operations around its region, as pure functions of the argument arrays.

  Before the region: 512 rows are picked out of the encoder output (row n is enc_out[batch_idx[n], tgt[n], :], a negative
  position counted from the end), each of the 1024 features is centred by its mean over the rows and divided by the
  square root of its variance plus a small constant, and the result is narrowed to the region's input format; the bias
  vector is laid out as a column.
  After the region: with x the region's [65536, 512] output, every nonzero k of the sparse matrix adds value[k] times
  row col[k] of x into row row[k] of a zero array; x is added to that, and the sum is transposed to [512, 65536].

  Each equation below says that a stretch of the program's operations, folded over any contents of the buffers, leaves a
  named buffer at that function of the buffers the stretch reads: the fold is unrolled and every operation's result read
  off, the large operations (the two row selections, the scatter, the sums over rows, the joining of the two position columns) never opened. The operations before
  the region come in three stretches (the rows and their mean; the variance routine; the normalisation), read one at a
  time and then composed.
-/
import proofs.«158608_j81037442941606_2_alg».proof.Proof.Gen.KernelIdeal.Frame
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-! ## Before the region: the rows picked out of the encoder output, normalised per feature -/

/-- A position that may be counted from the end: the extent is added to a negative one. -/
def wrapRow (ext : BitVec 32) (a : (⟨S512, .i32⟩ : BufTy).Contents (Elt F)) : (⟨S512, .i32⟩ : BufTy).Contents (Elt F) :=
  select (cmpi .slt a (broadcastInDim S512 ![] bcast_S_S512 (constantI S_ 32 0#32)))
    (addi a (broadcastInDim S512 ![] bcast_S_S512 (constantI S_ 32 ext))) a

/-- The 512 rows enc_out[batch_idx[n], tgt[n], :]. -/
def picked (a0 : (⟨S32x128x1024, .f32⟩ : BufTy).Contents (Elt F)) (a4 a5 : (⟨S512, .i32⟩ : BufTy).Contents (Elt F)) :
    (⟨S512x1024, .f32⟩ : BufTy).Contents (Elt F) :=
  Host.gather gather_S32x128x1024_S512x2_S512x1024_1_01_n_n_01_1_111024 a0
    (concatenate S512x2 1 [⟨S512x1, broadcastInDim S512x1 ![0] bcast_S512_S512x1_0 (wrapRow 32#32 a4)⟩,
      ⟨S512x1, broadcastInDim S512x1 ![0] bcast_S512_S512x1_0 (wrapRow 128#32 a5)⟩] concatenates_S512x1_S512x1_S512x2_d1)

/-- The mean of each feature over the 512 rows. -/
def featureMean (g : (⟨S512x1024, .f32⟩ : BufTy).Contents (Elt F)) : (⟨S1024, .f32⟩ : BufTy).Contents (Elt F) :=
  Host.divf (Host.reduceAdd g (constant S_ .f32 0x00000000#32) reducesTo_S512x1024_S1024_d0 h_S_)
    (broadcastInDim S1024 ![] bcast_S_S1024 (constant S_ .f32 0x44000000#32))

/-- The count the variance divides by: 512 less the correction k. -/
def varCount (k : (⟨S_, .i32⟩ : BufTy).Contents (Elt F)) : (⟨S_, .f32⟩ : BufTy).Contents (Elt F) :=
  subf (constant S_ .f32 0x44000000#32) (sitofp .f32 k)

/-- The variance of each feature over the 512 rows with correction k, as the library routine computes it: the sum of
    the squared deviations from the mean over the count, kept only when the count is positive. -/
def featureVarWith (g : (⟨S512x1024, .f32⟩ : BufTy).Contents (Elt F)) (k : (⟨S_, .i32⟩ : BufTy).Contents (Elt F)) :
    (⟨S1024, .f32⟩ : BufTy).Contents (Elt F) :=
  select (broadcastInDim S1024 ![] bcast_S_S1024 (cmpf .ogt (varCount k) (constant S_ .f32 0x00000000#32)))
    (Host.divf
      (Host.reduceAdd
        (mulf
          (subf g (broadcastInDim S512x1024 ![0, 1] bcast_S1x1024_S512x1024_0_1
            (Host.divf (broadcastInDim S1x1024 ![1] bcast_S1024_S1x1024_1
                (Host.reduceAdd g (constant S_ .f32 0x00000000#32) reducesTo_S512x1024_S1024_d0 h_S_))
              (broadcastInDim S1x1024 ![] bcast_S_S1x1024 (constant S_ .f32 0x44000000#32)))))
          (subf g (broadcastInDim S512x1024 ![0, 1] bcast_S1x1024_S512x1024_0_1
            (Host.divf (broadcastInDim S1x1024 ![1] bcast_S1024_S1x1024_1
                (Host.reduceAdd g (constant S_ .f32 0x00000000#32) reducesTo_S512x1024_S1024_d0 h_S_))
              (broadcastInDim S1x1024 ![] bcast_S_S1x1024 (constant S_ .f32 0x44000000#32))))))
        (constant S_ .f32 0x00000000#32) reducesTo_S512x1024_S1024_d0 h_S_)
      (broadcastInDim S1024 ![] bcast_S_S1024 (varCount k)))
    (broadcastInDim S1024 ![] bcast_S_S1024 (id (constant S_ .f32 0x7FC00000#32)))

/-- The biased variance: correction 0. -/
def featureVar (g : (⟨S512x1024, .f32⟩ : BufTy).Contents (Elt F)) : (⟨S1024, .f32⟩ : BufTy).Contents (Elt F) :=
  featureVarWith g (constantI S_ 32 0#32)

/-- Each feature centred by mu and divided by the square root of var plus a small constant. -/
def normalisedWith (g : (⟨S512x1024, .f32⟩ : BufTy).Contents (Elt F)) (mu var : (⟨S1024, .f32⟩ : BufTy).Contents (Elt F)) :
    (⟨S512x1024, .f32⟩ : BufTy).Contents (Elt F) :=
  Host.divf
    (subf g (broadcastInDim S512x1024 ![0, 1] bcast_S1x1024_S512x1024_0_1
      (broadcastInDim S1x1024 ![1] bcast_S1024_S1x1024_1 mu)))
    (broadcastInDim S512x1024 ![0, 1] bcast_S1x1024_S512x1024_0_1
      (broadcastInDim S1x1024 ![1] bcast_S1024_S1x1024_1
        (Host.sqrt (addf var (broadcastInDim S1024 ![] bcast_S_S1024 (constant S_ .f32 0x3727C5AC#32))))))

/-- Each feature centred by its mean and divided by the square root of its variance plus a small constant. -/
def normalised (g : (⟨S512x1024, .f32⟩ : BufTy).Contents (Elt F)) : (⟨S512x1024, .f32⟩ : BufTy).Contents (Elt F) :=
  normalisedWith g (featureMean g) (featureVar g)

/-- The normalised activations the region is given, in the narrower float format. -/
def activations (a0 : (⟨S32x128x1024, .f32⟩ : BufTy).Contents (Elt F)) (a4 a5 : (⟨S512, .i32⟩ : BufTy).Contents (Elt F)) :
    (⟨S512x1024, .bf16⟩ : BufTy).Contents (Elt F) :=
  truncf .bf16 (normalised (picked a0 a4 a5)) bitsLt_bf16_f32

/-- The bias as a column. -/
def biasColumn (a2 : (⟨S65536, .f32⟩ : BufTy).Contents (Elt F)) : (⟨S65536x1, .f32⟩ : BufTy).Contents (Elt F) :=
  broadcastInDim S65536x1 ![0] bcast_S65536_S65536x1_0 a2

/-! ## After the region: the sparse matrix applied to the rows of the region's output -/

/-- The row each nonzero adds into. -/
def targetRows (a6 : (⟨S2x262144, .i32⟩ : BufTy).Contents (Elt F)) : (⟨S262144, .i32⟩ : BufTy).Contents (Elt F) :=
  fun i => shapeCast S262144 (extractStridedSlice S1x262144 ![0, 0] a6 slices_S2x262144_S1x262144_0_0) shapeCasts_S1x262144_S262144 i

/-- The row each nonzero reads, a negative position counted from the end. -/
def sourceRows (a6 : (⟨S2x262144, .i32⟩ : BufTy).Contents (Elt F)) : (⟨S262144, .i32⟩ : BufTy).Contents (Elt F) :=
  select
    (cmpi .slt (fun i => shapeCast S262144 (extractStridedSlice S1x262144 ![1, 0] a6 slices_S2x262144_S1x262144_1_0) shapeCasts_S1x262144_S262144 i)
      (broadcastInDim S262144 ![] bcast_S_S262144 (constantI S_ 32 0#32)))
    (addi (fun i => shapeCast S262144 (extractStridedSlice S1x262144 ![1, 0] a6 slices_S2x262144_S1x262144_1_0) shapeCasts_S1x262144_S262144 i)
      (broadcastInDim S262144 ![] bcast_S_S262144 (constantI S_ 32 65536#32)))
    (fun i => shapeCast S262144 (extractStridedSlice S1x262144 ![1, 0] a6 slices_S2x262144_S1x262144_1_0) shapeCasts_S1x262144_S262144 i)

/-- The sparse product: for each nonzero k, row sourceRows[k] of x scaled by the k-th value, added into row targetRows[k]
    of a zero array. -/
def sparseApply (x : (⟨S65536x512, .f32⟩ : BufTy).Contents (Elt F)) (a3 : (⟨S262144, .f32⟩ : BufTy).Contents (Elt F))
    (a6 : (⟨S2x262144, .i32⟩ : BufTy).Contents (Elt F)) : (⟨S65536x512, .f32⟩ : BufTy).Contents (Elt F) :=
  Host.scatterAdd scatter_S65536x512_S262144x1_S262144x512_1_0_0_1
    (broadcastInDim S65536x512 ![] bcast_S_S65536x512 (constant S_ .f32 0x00000000#32))
    (broadcastInDim S262144x1 ![0] bcast_S262144_S262144x1_0 (targetRows a6))
    (mulf (Host.gather gather_S65536x512_S262144x1_S262144x512_1_0_n_n_0_1_1512 x
        (broadcastInDim S262144x1 ![0] bcast_S262144_S262144x1_0 (sourceRows a6)))
      (broadcastInDim S262144x512 ![0, 1] bcast_S262144x1_S262144x512_0_1
        (broadcastInDim S262144x1 ![0] bcast_S262144_S262144x1_0 a3)))

/-- The program's result from the region's output x: the sparse product plus x, transposed to [512, 65536]. -/
def result (x : (⟨S65536x512, .f32⟩ : BufTy).Contents (Elt F)) (a3 : (⟨S262144, .f32⟩ : BufTy).Contents (Elt F))
    (a6 : (⟨S2x262144, .i32⟩ : BufTy).Contents (Elt F)) : (⟨S512x65536, .f32⟩ : BufTy).Contents (Elt F) :=
  transpose S512x65536 [1, 0] (addf (sparseApply x a3 a6) x) transposes_S65536x512_S512x65536_1_0

/-! ## After the region -/

attribute [local irreducible] Host.gather Host.scatterAdd Host.reduceAdd concatenate in
set_option maxRecDepth 8192 in
set_option maxHeartbeats 1000000 in
/-- The operations after the region leave the result buffer at `result` of the region's output buffer and the two
    sparse-matrix arguments. -/
theorem result_eq (W : Valuation τ sig (Elt F)) :
    after (hostOps1 (F := F)) W (main_v48 : DevRef τ sig)
      = result (W (main_v29 : DevRef τ sig)) (W (main_arg3 : DevRef τ sig)) (W (main_arg6 : DevRef τ sig)) := by
  simp only [after_cons, after_nil]
  rfl

/-! ## Before the region, first stretch: the picked rows, their mean, the variance's correction -/

attribute [local irreducible] Host.gather Host.scatterAdd Host.reduceAdd concatenate in
set_option maxRecDepth 8192 in
set_option maxHeartbeats 1000000 in
theorem first_rows (W : Valuation τ sig (Elt F)) :
    after (hostOps0 (F := F)) W (main_v13 : DevRef τ sig)
      = picked (W (main_arg0 : DevRef τ sig)) (W (main_arg4 : DevRef τ sig)) (W (main_arg5 : DevRef τ sig)) := by
  simp only [after_cons, after_nil]
  rfl

attribute [local irreducible] Host.gather Host.scatterAdd Host.reduceAdd concatenate in
set_option maxRecDepth 8192 in
set_option maxHeartbeats 1000000 in
theorem first_mean (W : Valuation τ sig (Elt F)) :
    after (hostOps0 (F := F)) W (main_v16 : DevRef τ sig)
      = featureMean (picked (W (main_arg0 : DevRef τ sig)) (W (main_arg4 : DevRef τ sig)) (W (main_arg5 : DevRef τ sig))) := by
  simp only [after_cons, after_nil]
  rfl

attribute [local irreducible] Host.gather Host.scatterAdd Host.reduceAdd concatenate in
set_option maxRecDepth 8192 in
set_option maxHeartbeats 1000000 in
theorem first_correction (W : Valuation τ sig (Elt F)) :
    after (hostOps0 (F := F)) W (main_c_4 : DevRef τ sig) = constantI S_ 32 0#32 := by
  simp only [after_cons, after_nil]
  rfl

attribute [local irreducible] Host.gather Host.scatterAdd Host.reduceAdd concatenate in
set_option maxRecDepth 8192 in
set_option maxHeartbeats 1000000 in
theorem first_keeps_bias (W : Valuation τ sig (Elt F)) :
    after (hostOps0 (F := F)) W (main_arg2 : DevRef τ sig) = W (main_arg2 : DevRef τ sig) := by
  simp only [after_cons, after_nil]
  rfl

/-! ## Second stretch: the variance routine -/

attribute [local irreducible] Host.gather Host.scatterAdd Host.reduceAdd concatenate in
set_option maxRecDepth 8192 in
set_option maxHeartbeats 1000000 in
theorem second_var (W : Valuation τ sig (Elt F)) :
    after (hostOps0_1 (F := F)) W (main_v17 : DevRef τ sig)
      = featureVarWith (W (main_v13 : DevRef τ sig)) (W (main_c_4 : DevRef τ sig)) := by
  simp only [after_cons, after_nil]
  rfl

attribute [local irreducible] Host.gather Host.scatterAdd Host.reduceAdd concatenate in
set_option maxRecDepth 8192 in
set_option maxHeartbeats 1000000 in
theorem second_keeps_rows (W : Valuation τ sig (Elt F)) :
    after (hostOps0_1 (F := F)) W (main_v13 : DevRef τ sig) = W (main_v13 : DevRef τ sig) := by
  simp only [after_cons, after_nil]
  rfl

attribute [local irreducible] Host.gather Host.scatterAdd Host.reduceAdd concatenate in
set_option maxRecDepth 8192 in
set_option maxHeartbeats 1000000 in
theorem second_keeps_mean (W : Valuation τ sig (Elt F)) :
    after (hostOps0_1 (F := F)) W (main_v16 : DevRef τ sig) = W (main_v16 : DevRef τ sig) := by
  simp only [after_cons, after_nil]
  rfl

attribute [local irreducible] Host.gather Host.scatterAdd Host.reduceAdd concatenate in
set_option maxRecDepth 8192 in
set_option maxHeartbeats 1000000 in
theorem second_keeps_bias (W : Valuation τ sig (Elt F)) :
    after (hostOps0_1 (F := F)) W (main_arg2 : DevRef τ sig) = W (main_arg2 : DevRef τ sig) := by
  simp only [after_cons, after_nil]
  rfl

/-! ## Third stretch: the normalisation and the bias column -/

attribute [local irreducible] Host.gather Host.scatterAdd Host.reduceAdd concatenate in
set_option maxRecDepth 8192 in
set_option maxHeartbeats 1000000 in
theorem third_activations (W : Valuation τ sig (Elt F)) :
    after (hostOps0_2 (F := F)) W (main_v27 : DevRef τ sig)
      = truncf .bf16 (normalisedWith (W (main_v13 : DevRef τ sig)) (W (main_v16 : DevRef τ sig)) (W (main_v17 : DevRef τ sig))) bitsLt_bf16_f32 := by
  simp only [after_cons, after_nil]
  rfl

attribute [local irreducible] Host.gather Host.scatterAdd Host.reduceAdd concatenate in
set_option maxRecDepth 8192 in
set_option maxHeartbeats 1000000 in
theorem third_bias (W : Valuation τ sig (Elt F)) :
    after (hostOps0_2 (F := F)) W (main_v28 : DevRef τ sig) = biasColumn (W (main_arg2 : DevRef τ sig)) := by
  simp only [after_cons, after_nil]
  rfl

/-! ## The three stretches composed -/

/-- The operations before the region leave the region's first input at the normalised activations. -/
theorem activations_eq (W : Valuation τ sig (Elt F)) :
    after (List.flatten [hostOps0 (F := F), hostOps0_1, hostOps0_2]) W (main_v27 : DevRef τ sig)
      = activations (W (main_arg0 : DevRef τ sig)) (W (main_arg4 : DevRef τ sig)) (W (main_arg5 : DevRef τ sig)) := by
  rw [List.flatten_cons, List.flatten_cons, List.flatten_cons, List.flatten_nil, List.append_nil, after_append, after_append,
    third_activations, second_var, second_keeps_rows, second_keeps_mean, first_rows, first_mean, first_correction]
  rfl

/-- The operations before the region leave the region's third input at the bias column. -/
theorem biasColumn_eq (W : Valuation τ sig (Elt F)) :
    after (List.flatten [hostOps0 (F := F), hostOps0_1, hostOps0_2]) W (main_v28 : DevRef τ sig)
      = biasColumn (W (main_arg2 : DevRef τ sig)) := by
  rw [List.flatten_cons, List.flatten_cons, List.flatten_cons, List.flatten_nil, List.append_nil, after_append, after_append,
    third_bias, second_keeps_bias, first_keeps_bias]

end Cert.KernelIdeal.Host

end
-- ==== Proof.KernelRun.lean ====
/-
  The kernel program's run, read as a value.

  Every weakly fair execution ends with the result buffer at
      result (whole (activations enc_out batch_idx tgt) wt2_w (biasColumn wt2_b)) A_values A_indices
  of the argument arrays as launched, and with the arguments unchanged: the region's output array is the one
  whole-array function of what the region finds, what it finds are the functions the operations before the region leave,
  and the operations after the region apply `result` to the region's output.
-/
import proofs.«158608_j81037442941606_2_alg».proof.Proof.Gen.KernelIdeal.Frame
import proofs.«158608_j81037442941606_2_alg».proof.Proof.SwishArray
import proofs.«158608_j81037442941606_2_alg».proof.Proof.KernelHost

noncomputable section

namespace Cert.KernelIdeal.Swish

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The program's result as a function of its seven arguments. -/
def out (a0 : (⟨S32x128x1024, .f32⟩ : BufTy).Contents (Elt Ideal)) (a1 : (⟨S65536x1024, .f32⟩ : BufTy).Contents (Elt Ideal))
    (a2 : (⟨S65536, .f32⟩ : BufTy).Contents (Elt Ideal)) (a3 : (⟨S262144, .f32⟩ : BufTy).Contents (Elt Ideal))
    (a4 a5 : (⟨S512, .i32⟩ : BufTy).Contents (Elt Ideal)) (a6 : (⟨S2x262144, .i32⟩ : BufTy).Contents (Elt Ideal)) :
    (⟨S512x65536, .f32⟩ : BufTy).Contents (Elt Ideal) :=
  Host.result (whole (Host.activations a0 a4 a5) a1 (Host.biasColumn a2)) a3 a6

/-- The region's output array, from the arguments as launched. -/
theorem region_array (c : Dev nD) :
    (dats m 0 c).arrAt 3 cfg0.N
      = whole (Host.activations (m ((c : Thread nD τ).loc main_arg0)) (m ((c : Thread nD τ).loc main_arg4)) (m ((c : Thread nD τ).loc main_arg5)))
          (m ((c : Thread nD τ).loc main_arg1)) (Host.biasColumn (m ((c : Thread nD τ).loc main_arg2))) := by
  have h27 : V m c main_v27 = Host.activations (m ((c : Thread nD τ).loc main_arg0)) (m ((c : Thread nD τ).loc main_arg4)) (m ((c : Thread nD τ).loc main_arg5)) :=
    Host.activations_eq (fun b => m (c, b))
  have h28 : V m c main_v28 = Host.biasColumn (m ((c : Thread nD τ).loc main_arg2)) :=
    Host.biasColumn_eq (fun b => m (c, b))
  rw [final m c, h27, h28, V_main_arg1 m c]

/-- The result buffer after the operations that follow the region. -/
theorem tail_value (c : Dev nD) :
    Pipeline.afterTail₀ cfgs (dats m) 0 (V0 m) [hostOps1] c main_v48 = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold Pipeline.afterTail₀
  show StableHlo.after hostOps1 (Pipeline.withArrays spec0 c (V0 m c) fun w => (dats m 0 c).arrAt w cfg0.N) (Proc.devRef .tc main_v48) = _
  rw [Host.result_eq]
  have h29 : Pipeline.withArrays spec0 c (V0 m c) (fun w => (dats m 0 c).arrAt w cfg0.N) (main_v29 : DevRef τ sig)
      = (dats m 0 c).arrAt 3 cfg0.N :=
    Pipeline.withArrays_arr spec0 launch0.win.arr_inj c _ _ 3
  have h3 : Pipeline.withArrays spec0 c (V0 m c) (fun w => (dats m 0 c).arrAt w cfg0.N) (main_arg3 : DevRef τ sig)
      = m ((c : Thread nD τ).loc main_arg3) :=
    (Pipeline.withArrays_of_ne _ c (V0 m c) _ main_arg3 (by exact (by decide : ∀ w, Pipeline.arrRef spec0 w ≠ main_arg3))).trans (V_main_arg3 m c)
  have h6 : Pipeline.withArrays spec0 c (V0 m c) (fun w => (dats m 0 c).arrAt w cfg0.N) (main_arg6 : DevRef τ sig)
      = m ((c : Thread nD τ).loc main_arg6) :=
    (Pipeline.withArrays_of_ne _ c (V0 m c) _ main_arg6 (by exact (by decide : ∀ w, Pipeline.arrRef spec0 w ≠ main_arg6))).trans (V_main_arg6 m c)
  rw [h29, h3, h6, region_array m c]
  rfl

/-- THE RUN: the result at `out` of the arguments, the arguments unchanged. -/
theorem run : θ_run defs (onTc (τ := τ) (main (F := Ideal))) ⟨m, fun _ => 0, ρ⟩ fun r => ∀ c : Dev nD,
      r.2.mem ((c.tc : Thread nD τ).loc main_v48) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v48 (Pipeline.mem_restRefs_of main_v48 (by decide) (by decide))).trans (tail_value m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Swish

end
-- ==== Proof.RefRun.lean ====
import proofs.«158608_j81037442941606_2_alg».proof.Proof.Gen.ReferenceIdeal
import Idealize.ShloMosaic.Lib.StableHlo.Run

/-!
# The reference program's run

The reference's `@main` is a straight line of tensor operations once its three module-local functions are put in
the place of their calls: ninety-three operations, each writing one buffer of its own. Its run therefore ends with
every buffer at the composition of the operations that lead to it. The composition is stated here in four
stages — the normalized gathered rows `pre`, the affine layer with its activation `swishRef`, the sparse matrix
product `spmm` on the transposed activations, and the result `refOut` — each the printed operations composed in
the printed order.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- `@main`'s operations in order, the calls replaced by the callee's operations over the call's buffers:
    twenty-four up to the scalar `%c_4`; the variance function's twenty-two (its last three the selection
    function's: the not-a-number scalar converted to its own type, broadcast, the select); fifteen up to `%31`;
    the activation function's nine; the remaining twenty-three. -/
abbrev ops : List (HloOp τ sig (Elt F)) :=
  [ StableHlo.nullary main_c (constantI S_ 32 0#32),
    StableHlo.unary main_c main_v0 (broadcastInDim S512 ![] bcast_S_S512 : (⟨S_, .i32⟩ : BufTy).Contents (Elt F) → (⟨S512, .i32⟩ : BufTy).Contents (Elt F)),
    StableHlo.binary main_arg4 main_v0 main_v1 (cmpi .slt : (⟨S512, .i32⟩ : BufTy).Contents (Elt F) → (⟨S512, .i32⟩ : BufTy).Contents (Elt F) → (⟨S512, .i1⟩ : BufTy).Contents (Elt F)),
    StableHlo.nullary main_c_0 (constantI S_ 32 32#32),
    StableHlo.unary main_c_0 main_v2 (broadcastInDim S512 ![] bcast_S_S512 : (⟨S_, .i32⟩ : BufTy).Contents (Elt F) → (⟨S512, .i32⟩ : BufTy).Contents (Elt F)),
    StableHlo.binary main_arg4 main_v2 main_v3 (addi : (⟨S512, .i32⟩ : BufTy).Contents (Elt F) → (⟨S512, .i32⟩ : BufTy).Contents (Elt F) → (⟨S512, .i32⟩ : BufTy).Contents (Elt F)),
    StableHlo.ternary main_v1 main_v3 main_arg4 main_v4 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.nullary main_c_1 (constantI S_ 32 0#32),
    StableHlo.unary main_c_1 main_v5 (broadcastInDim S512 ![] bcast_S_S512 : (⟨S_, .i32⟩ : BufTy).Contents (Elt F) → (⟨S512, .i32⟩ : BufTy).Contents (Elt F)),
    StableHlo.binary main_arg5 main_v5 main_v6 (cmpi .slt : (⟨S512, .i32⟩ : BufTy).Contents (Elt F) → (⟨S512, .i32⟩ : BufTy).Contents (Elt F) → (⟨S512, .i1⟩ : BufTy).Contents (Elt F)),
    StableHlo.nullary main_c_2 (constantI S_ 32 128#32),
    StableHlo.unary main_c_2 main_v7 (broadcastInDim S512 ![] bcast_S_S512 : (⟨S_, .i32⟩ : BufTy).Contents (Elt F) → (⟨S512, .i32⟩ : BufTy).Contents (Elt F)),
    StableHlo.binary main_arg5 main_v7 main_v8 (addi : (⟨S512, .i32⟩ : BufTy).Contents (Elt F) → (⟨S512, .i32⟩ : BufTy).Contents (Elt F) → (⟨S512, .i32⟩ : BufTy).Contents (Elt F)),
    StableHlo.ternary main_v6 main_v8 main_arg5 main_v9 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v4 main_v10 (broadcastInDim S512x1 ![0] bcast_S512_S512x1_0 : (⟨S512, .i32⟩ : BufTy).Contents (Elt F) → (⟨S512x1, .i32⟩ : BufTy).Contents (Elt F)),
    StableHlo.unary main_v9 main_v11 (broadcastInDim S512x1 ![0] bcast_S512_S512x1_0 : (⟨S512, .i32⟩ : BufTy).Contents (Elt F) → (⟨S512x1, .i32⟩ : BufTy).Contents (Elt F)),
    StableHlo.binary main_v10 main_v11 main_v12 ((fun a b => concatenate S512x2 1 [⟨S512x1, a⟩, ⟨S512x1, b⟩] concatenates_S512x1_S512x1_S512x2_d1) : (⟨S512x1, .i32⟩ : BufTy).Contents (Elt F) → (⟨S512x1, .i32⟩ : BufTy).Contents (Elt F) → (⟨S512x2, .i32⟩ : BufTy).Contents (Elt F)),
    StableHlo.binary main_arg0 main_v12 main_v13 ((fun x i => Host.gather gather_S32x128x1024_S512x2_S512x1024_1_01_n_n_01_1_111024 x i) : (⟨S32x128x1024, .f32⟩ : BufTy).Contents (Elt F) → (⟨S512x2, .i32⟩ : BufTy).Contents (Elt F) → (⟨S512x1024, .f32⟩ : BufTy).Contents (Elt F)),
    StableHlo.nullary main_cst (constant S_ .f32 0x00000000#32),
    StableHlo.binary main_v13 main_cst main_v14 ((fun x v => Host.reduceAdd x v reducesTo_S512x1024_S1024_d0 h_S_) : (⟨S512x1024, .f32⟩ : BufTy).Contents (Elt F) → (⟨S_, .f32⟩ : BufTy).Contents (Elt F) → (⟨S1024, .f32⟩ : BufTy).Contents (Elt F)),
    StableHlo.nullary main_cst_3 (constant S_ .f32 0x44000000#32),
    StableHlo.unary main_cst_3 main_v15 (broadcastInDim S1024 ![] bcast_S_S1024 : (⟨S_, .f32⟩ : BufTy).Contents (Elt F) → (⟨S1024, .f32⟩ : BufTy).Contents (Elt F)),
    StableHlo.binary main_v14 main_v15 main_v16 (Host.divf : (⟨S1024, .f32⟩ : BufTy).Contents (Elt F) → (⟨S1024, .f32⟩ : BufTy).Contents (Elt F) → (⟨S1024, .f32⟩ : BufTy).Contents (Elt F)),
    StableHlo.nullary main_c_4 (constantI S_ 32 0#32),
    StableHlo.TRef.nullary (.of main_call0_cst : StableHlo.TRef sig ⟨S_, .f32⟩) (constant S_ .f32 0x00000000#32),
    StableHlo.TRef.binary (.of main_v13 : StableHlo.TRef sig ⟨S512x1024, .f32⟩) (.of main_call0_cst : StableHlo.TRef sig ⟨S_, .f32⟩) (.of main_call0_v0 : StableHlo.TRef sig ⟨S1024, .f32⟩) (fun x v => Host.reduceAdd x v reducesTo_S512x1024_S1024_d0 h_S_),
    StableHlo.TRef.unary (.of main_call0_v0 : StableHlo.TRef sig ⟨S1024, .f32⟩) (.of main_call0_v1 : StableHlo.TRef sig ⟨S1x1024, .f32⟩) (broadcastInDim S1x1024 ![1] bcast_S1024_S1x1024_1),
    StableHlo.TRef.nullary (.of main_call0_cst_0 : StableHlo.TRef sig ⟨S_, .f32⟩) (constant S_ .f32 0x44000000#32),
    StableHlo.TRef.unary (.of main_call0_cst_0 : StableHlo.TRef sig ⟨S_, .f32⟩) (.of main_call0_v2 : StableHlo.TRef sig ⟨S1x1024, .f32⟩) (broadcastInDim S1x1024 ![] bcast_S_S1x1024),
    StableHlo.TRef.binary (.of main_call0_v1 : StableHlo.TRef sig ⟨S1x1024, .f32⟩) (.of main_call0_v2 : StableHlo.TRef sig ⟨S1x1024, .f32⟩) (.of main_call0_v3 : StableHlo.TRef sig ⟨S1x1024, .f32⟩) Host.divf,
    StableHlo.TRef.unary (.of main_call0_v3 : StableHlo.TRef sig ⟨S1x1024, .f32⟩) (.of main_call0_v4 : StableHlo.TRef sig ⟨S512x1024, .f32⟩) (broadcastInDim S512x1024 ![0, 1] bcast_S1x1024_S512x1024_0_1),
    StableHlo.TRef.binary (.of main_v13 : StableHlo.TRef sig ⟨S512x1024, .f32⟩) (.of main_call0_v4 : StableHlo.TRef sig ⟨S512x1024, .f32⟩) (.of main_call0_v5 : StableHlo.TRef sig ⟨S512x1024, .f32⟩) subf,
    StableHlo.TRef.binary (.of main_call0_v5 : StableHlo.TRef sig ⟨S512x1024, .f32⟩) (.of main_call0_v5 : StableHlo.TRef sig ⟨S512x1024, .f32⟩) (.of main_call0_v6 : StableHlo.TRef sig ⟨S512x1024, .f32⟩) mulf,
    StableHlo.TRef.unary (.of main_c_4 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x44000000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S512x1024, .f32⟩) (.of main_call0_cst_2 : StableHlo.TRef sig ⟨S_, .f32⟩) (.of main_call0_v9 : StableHlo.TRef sig ⟨S1024, .f32⟩) (fun x v => Host.reduceAdd x v reducesTo_S512x1024_S1024_d0 h_S_),
    StableHlo.TRef.unary (.of main_call0_v8 : StableHlo.TRef sig ⟨S_, .f32⟩) (.of main_call0_v10 : StableHlo.TRef sig ⟨S1024, .f32⟩) (broadcastInDim S1024 ![] bcast_S_S1024),
    StableHlo.TRef.binary (.of main_call0_v9 : StableHlo.TRef sig ⟨S1024, .f32⟩) (.of main_call0_v10 : StableHlo.TRef sig ⟨S1024, .f32⟩) (.of main_call0_v11 : StableHlo.TRef sig ⟨S1024, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S1024, .f32⟩) (broadcastInDim S1024 ![] bcast_S_S1024),
    StableHlo.TRef.ternary (.of main_call0_v12 : StableHlo.TRef sig ⟨S_, .i1⟩) (.of main_call0_v11 : StableHlo.TRef sig ⟨S1024, .f32⟩) (.of main_call0_call0_v1 : StableHlo.TRef sig ⟨S1024, .f32⟩) (.of main_v17 : StableHlo.TRef sig ⟨S1024, .f32⟩) (fun p a b => select (broadcastInDim S1024 ![] bcast_S_S1024 p) a b),
    StableHlo.unary main_v16 main_v18 (broadcastInDim S1x1024 ![1] bcast_S1024_S1x1024_1 : (⟨S1024, .f32⟩ : BufTy).Contents (Elt F) → (⟨S1x1024, .f32⟩ : BufTy).Contents (Elt F)),
    StableHlo.unary main_v18 main_v19 (broadcastInDim S512x1024 ![0, 1] bcast_S1x1024_S512x1024_0_1 : (⟨S1x1024, .f32⟩ : BufTy).Contents (Elt F) → (⟨S512x1024, .f32⟩ : BufTy).Contents (Elt F)),
    StableHlo.binary main_v13 main_v19 main_v20 (subf : (⟨S512x1024, .f32⟩ : BufTy).Contents (Elt F) → (⟨S512x1024, .f32⟩ : BufTy).Contents (Elt F) → (⟨S512x1024, .f32⟩ : BufTy).Contents (Elt F)),
    StableHlo.nullary main_cst_5 (constant S_ .f32 0x3727C5AC#32),
    StableHlo.unary main_cst_5 main_v21 (broadcastInDim S1024 ![] bcast_S_S1024 : (⟨S_, .f32⟩ : BufTy).Contents (Elt F) → (⟨S1024, .f32⟩ : BufTy).Contents (Elt F)),
    StableHlo.binary main_v17 main_v21 main_v22 (addf : (⟨S1024, .f32⟩ : BufTy).Contents (Elt F) → (⟨S1024, .f32⟩ : BufTy).Contents (Elt F) → (⟨S1024, .f32⟩ : BufTy).Contents (Elt F)),
    StableHlo.unary main_v22 main_v23 (Host.sqrt : (⟨S1024, .f32⟩ : BufTy).Contents (Elt F) → (⟨S1024, .f32⟩ : BufTy).Contents (Elt F)),
    StableHlo.unary main_v23 main_v24 (broadcastInDim S1x1024 ![1] bcast_S1024_S1x1024_1 : (⟨S1024, .f32⟩ : BufTy).Contents (Elt F) → (⟨S1x1024, .f32⟩ : BufTy).Contents (Elt F)),
    StableHlo.unary main_v24 main_v25 (broadcastInDim S512x1024 ![0, 1] bcast_S1x1024_S512x1024_0_1 : (⟨S1x1024, .f32⟩ : BufTy).Contents (Elt F) → (⟨S512x1024, .f32⟩ : BufTy).Contents (Elt F)),
    StableHlo.binary main_v20 main_v25 main_v26 (Host.divf : (⟨S512x1024, .f32⟩ : BufTy).Contents (Elt F) → (⟨S512x1024, .f32⟩ : BufTy).Contents (Elt F) → (⟨S512x1024, .f32⟩ : BufTy).Contents (Elt F)),
    StableHlo.unary main_arg1 main_v27 ((transpose S1024x65536 [1, 0] · transposes_S65536x1024_S1024x65536_1_0) : (⟨S65536x1024, .f32⟩ : BufTy).Contents (Elt F) → (⟨S1024x65536, .f32⟩ : BufTy).Contents (Elt F)),
    StableHlo.binary main_v26 main_v27 main_v28 ((fun l r => Host.dotGeneral dot_S512x1024_S1024x65536_S512x65536_1_0_0_1_n_n none l r) : (⟨S512x1024, .f32⟩ : BufTy).Contents (Elt F) → (⟨S1024x65536, .f32⟩ : BufTy).Contents (Elt F) → (⟨S512x65536, .f32⟩ : BufTy).Contents (Elt F)),
    StableHlo.unary main_arg2 main_v29 (broadcastInDim S1x65536 ![1] bcast_S65536_S1x65536_1 : (⟨S65536, .f32⟩ : BufTy).Contents (Elt F) → (⟨S1x65536, .f32⟩ : BufTy).Contents (Elt F)),
    StableHlo.unary main_v29 main_v30 (broadcastInDim S512x65536 ![0, 1] bcast_S1x65536_S512x65536_0_1 : (⟨S1x65536, .f32⟩ : BufTy).Contents (Elt F) → (⟨S512x65536, .f32⟩ : BufTy).Contents (Elt F)),
    StableHlo.binary main_v28 main_v30 main_v31 (addf : (⟨S512x65536, .f32⟩ : BufTy).Contents (Elt F) → (⟨S512x65536, .f32⟩ : BufTy).Contents (Elt F) → (⟨S512x65536, .f32⟩ : BufTy).Contents (Elt F)),
    StableHlo.TRef.unary (.of main_v31 : StableHlo.TRef sig ⟨S512x65536, .f32⟩) (.of main_call1_v0 : StableHlo.TRef sig ⟨S512x65536, .f32⟩) Host.negf,
    StableHlo.TRef.unary (.of main_call1_v0 : StableHlo.TRef sig ⟨S512x65536, .f32⟩) (.of main_call1_v1 : StableHlo.TRef sig ⟨S512x65536, .f32⟩) Host.exp,
    StableHlo.TRef.nullary (.of main_call1_cst : StableHlo.TRef sig ⟨S_, .f32⟩) (constant S_ .f32 0x3F800000#32),
    StableHlo.TRef.unary (.of main_call1_cst : StableHlo.TRef sig ⟨S_, .f32⟩) (.of main_call1_v2 : StableHlo.TRef sig ⟨S512x65536, .f32⟩) (broadcastInDim S512x65536 ![] bcast_S_S512x65536),
    StableHlo.TRef.binary (.of main_call1_v2 : StableHlo.TRef sig ⟨S512x65536, .f32⟩) (.of main_call1_v1 : StableHlo.TRef sig ⟨S512x65536, .f32⟩) (.of main_call1_v3 : StableHlo.TRef sig ⟨S512x65536, .f32⟩) addf,
    StableHlo.TRef.nullary (.of main_call1_cst_0 : StableHlo.TRef sig ⟨S_, .f32⟩) (constant S_ .f32 0x3F800000#32),
    StableHlo.TRef.unary (.of main_call1_cst_0 : StableHlo.TRef sig ⟨S_, .f32⟩) (.of main_call1_v4 : StableHlo.TRef sig ⟨S512x65536, .f32⟩) (broadcastInDim S512x65536 ![] bcast_S_S512x65536),
    StableHlo.TRef.binary (.of main_call1_v4 : StableHlo.TRef sig ⟨S512x65536, .f32⟩) (.of main_call1_v3 : StableHlo.TRef sig ⟨S512x65536, .f32⟩) (.of main_call1_v5 : StableHlo.TRef sig ⟨S512x65536, .f32⟩) Host.divf,
    StableHlo.TRef.binary (.of main_v31 : StableHlo.TRef sig ⟨S512x65536, .f32⟩) (.of main_call1_v5 : StableHlo.TRef sig ⟨S512x65536, .f32⟩) (.of main_v32 : StableHlo.TRef sig ⟨S512x65536, .f32⟩) mulf,
    StableHlo.unary main_arg6 main_v33 ((extractStridedSlice S1x262144 ![0, 0] · slices_S2x262144_S1x262144_0_0) : (⟨S2x262144, .i32⟩ : BufTy).Contents (Elt F) → (⟨S1x262144, .i32⟩ : BufTy).Contents (Elt F)),
    StableHlo.reshape main_v33 main_v34 rfl shapeCasts_S1x262144_S262144,
    StableHlo.unary main_arg6 main_v35 ((extractStridedSlice S1x262144 ![1, 0] · slices_S2x262144_S1x262144_1_0) : (⟨S2x262144, .i32⟩ : BufTy).Contents (Elt F) → (⟨S1x262144, .i32⟩ : BufTy).Contents (Elt F)),
    StableHlo.reshape main_v35 main_v36 rfl shapeCasts_S1x262144_S262144,
    StableHlo.unary main_v32 main_v37 ((transpose S65536x512 [1, 0] · transposes_S512x65536_S65536x512_1_0) : (⟨S512x65536, .f32⟩ : BufTy).Contents (Elt F) → (⟨S65536x512, .f32⟩ : BufTy).Contents (Elt F)),
    StableHlo.nullary main_c_6 (constantI S_ 32 0#32),
    StableHlo.unary main_c_6 main_v38 (broadcastInDim S262144 ![] bcast_S_S262144 : (⟨S_, .i32⟩ : BufTy).Contents (Elt F) → (⟨S262144, .i32⟩ : BufTy).Contents (Elt F)),
    StableHlo.binary main_v36 main_v38 main_v39 (cmpi .slt : (⟨S262144, .i32⟩ : BufTy).Contents (Elt F) → (⟨S262144, .i32⟩ : BufTy).Contents (Elt F) → (⟨S262144, .i1⟩ : BufTy).Contents (Elt F)),
    StableHlo.nullary main_c_7 (constantI S_ 32 65536#32),
    StableHlo.unary main_c_7 main_v40 (broadcastInDim S262144 ![] bcast_S_S262144 : (⟨S_, .i32⟩ : BufTy).Contents (Elt F) → (⟨S262144, .i32⟩ : BufTy).Contents (Elt F)),
    StableHlo.binary main_v36 main_v40 main_v41 (addi : (⟨S262144, .i32⟩ : BufTy).Contents (Elt F) → (⟨S262144, .i32⟩ : BufTy).Contents (Elt F) → (⟨S262144, .i32⟩ : BufTy).Contents (Elt F)),
    StableHlo.ternary main_v39 main_v41 main_v36 main_v42 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v42 main_v43 (broadcastInDim S262144x1 ![0] bcast_S262144_S262144x1_0 : (⟨S262144, .i32⟩ : BufTy).Contents (Elt F) → (⟨S262144x1, .i32⟩ : BufTy).Contents (Elt F)),
    StableHlo.binary main_v37 main_v43 main_v44 ((fun x i => Host.gather gather_S65536x512_S262144x1_S262144x512_1_0_n_n_0_1_1512 x i) : (⟨S65536x512, .f32⟩ : BufTy).Contents (Elt F) → (⟨S262144x1, .i32⟩ : BufTy).Contents (Elt F) → (⟨S262144x512, .f32⟩ : BufTy).Contents (Elt F)),
    StableHlo.unary main_arg3 main_v45 (broadcastInDim S262144x1 ![0] bcast_S262144_S262144x1_0 : (⟨S262144, .f32⟩ : BufTy).Contents (Elt F) → (⟨S262144x1, .f32⟩ : BufTy).Contents (Elt F)),
    StableHlo.unary main_v45 main_v46 (broadcastInDim S262144x512 ![0, 1] bcast_S262144x1_S262144x512_0_1 : (⟨S262144x1, .f32⟩ : BufTy).Contents (Elt F) → (⟨S262144x512, .f32⟩ : BufTy).Contents (Elt F)),
    StableHlo.binary main_v44 main_v46 main_v47 (mulf : (⟨S262144x512, .f32⟩ : BufTy).Contents (Elt F) → (⟨S262144x512, .f32⟩ : BufTy).Contents (Elt F) → (⟨S262144x512, .f32⟩ : BufTy).Contents (Elt F)),
    StableHlo.nullary main_cst_8 (constant S_ .f32 0x00000000#32),
    StableHlo.unary main_cst_8 main_v48 (broadcastInDim S65536x512 ![] bcast_S_S65536x512 : (⟨S_, .f32⟩ : BufTy).Contents (Elt F) → (⟨S65536x512, .f32⟩ : BufTy).Contents (Elt F)),
    StableHlo.unary main_v34 main_v49 (broadcastInDim S262144x1 ![0] bcast_S262144_S262144x1_0 : (⟨S262144, .i32⟩ : BufTy).Contents (Elt F) → (⟨S262144x1, .i32⟩ : BufTy).Contents (Elt F)),
    StableHlo.ternary main_v48 main_v49 main_v47 main_v50 ((fun x i u => Host.scatterAdd scatter_S65536x512_S262144x1_S262144x512_1_0_0_1 x i u) : (⟨S65536x512, .f32⟩ : BufTy).Contents (Elt F) → (⟨S262144x1, .i32⟩ : BufTy).Contents (Elt F) → (⟨S262144x512, .f32⟩ : BufTy).Contents (Elt F) → (⟨S65536x512, .f32⟩ : BufTy).Contents (Elt F)),
    StableHlo.unary main_v50 main_v51 ((transpose S512x65536 [1, 0] · transposes_S65536x512_S512x65536_1_0) : (⟨S65536x512, .f32⟩ : BufTy).Contents (Elt F) → (⟨S512x65536, .f32⟩ : BufTy).Contents (Elt F)),
    StableHlo.binary main_v51 main_v32 main_v52 (addf : (⟨S512x65536, .f32⟩ : BufTy).Contents (Elt F) → (⟨S512x65536, .f32⟩ : BufTy).Contents (Elt F) → (⟨S512x65536, .f32⟩ : BufTy).Contents (Elt F)) ]

-- ninety-three binds re-associated: the rewrite under the chain recurses once per statement
set_option maxRecDepth 4096 in
set_option maxHeartbeats 4000000 in
/-- `@main` is that straight line: its two windows and the functions' bodies unfolded at their calls, both sides
    are one chain of steps once sequencing is re-associated. -/
theorem main_eq (c : Dev nD) : main (F := F) c = seq ops := by
  simp only [main, main_part0, main_part1, fn_var.body, fn_where.body, fn_silu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., binary_bufs_sub ..⟩

/-- The gathered rows: row `n` is row `(a4 n, a5 n)` of `a0`, a negative index first moved up by its axis' length
    (32, 128): the printed operations `%c … %13`. -/
def rows (a0 : (⟨S32x128x1024, .f32⟩ : BufTy).Contents (Elt F)) (a4 a5 : (⟨S512, .i32⟩ : BufTy).Contents (Elt F)) :
    (⟨S512x1024, .f32⟩ : BufTy).Contents (Elt F) :=
  let c : (⟨S_, .i32⟩ : BufTy).Contents (Elt F) := constantI S_ 32 0#32
  let v0 : (⟨S512, .i32⟩ : BufTy).Contents (Elt F) := broadcastInDim S512 ![] bcast_S_S512 c
  let v1 : (⟨S512, .i1⟩ : BufTy).Contents (Elt F) := cmpi .slt a4 v0
  let c_0 : (⟨S_, .i32⟩ : BufTy).Contents (Elt F) := constantI S_ 32 32#32
  let v2 : (⟨S512, .i32⟩ : BufTy).Contents (Elt F) := broadcastInDim S512 ![] bcast_S_S512 c_0
  let v3 : (⟨S512, .i32⟩ : BufTy).Contents (Elt F) := addi a4 v2
  let v4 : (⟨S512, .i32⟩ : BufTy).Contents (Elt F) := select v1 v3 a4
  let c_1 : (⟨S_, .i32⟩ : BufTy).Contents (Elt F) := constantI S_ 32 0#32
  let v5 : (⟨S512, .i32⟩ : BufTy).Contents (Elt F) := broadcastInDim S512 ![] bcast_S_S512 c_1
  let v6 : (⟨S512, .i1⟩ : BufTy).Contents (Elt F) := cmpi .slt a5 v5
  let c_2 : (⟨S_, .i32⟩ : BufTy).Contents (Elt F) := constantI S_ 32 128#32
  let v7 : (⟨S512, .i32⟩ : BufTy).Contents (Elt F) := broadcastInDim S512 ![] bcast_S_S512 c_2
  let v8 : (⟨S512, .i32⟩ : BufTy).Contents (Elt F) := addi a5 v7
  let v9 : (⟨S512, .i32⟩ : BufTy).Contents (Elt F) := select v6 v8 a5
  let v10 : (⟨S512x1, .i32⟩ : BufTy).Contents (Elt F) := broadcastInDim S512x1 ![0] bcast_S512_S512x1_0 v4
  let v11 : (⟨S512x1, .i32⟩ : BufTy).Contents (Elt F) := broadcastInDim S512x1 ![0] bcast_S512_S512x1_0 v9
  let v12 : (⟨S512x2, .i32⟩ : BufTy).Contents (Elt F) := concatenate S512x2 1 [⟨S512x1, v10⟩, ⟨S512x1, v11⟩] concatenates_S512x1_S512x1_S512x2_d1
  Host.gather gather_S32x128x1024_S512x2_S512x1024_1_01_n_n_01_1_111024 a0 v12

/-- The column variance with `n` degrees of freedom taken off: the sum over the 512 rows of the squared deviations
    from the column mean, over `512 - n`, kept where `512 - n` is positive (the not-a-number pattern elsewhere): the
    variance function's nineteen operations and, last, the selection function's three. -/
def colVar (g : (⟨S512x1024, .f32⟩ : BufTy).Contents (Elt F)) (n : (⟨S_, .i32⟩ : BufTy).Contents (Elt F)) :
    (⟨S1024, .f32⟩ : BufTy).Contents (Elt F) :=
  let cst : (⟨S_, .f32⟩ : BufTy).Contents (Elt F) := constant S_ .f32 0x00000000#32
  let v0 : (⟨S1024, .f32⟩ : BufTy).Contents (Elt F) := Host.reduceAdd g cst reducesTo_S512x1024_S1024_d0 h_S_
  let v1 : (⟨S1x1024, .f32⟩ : BufTy).Contents (Elt F) := broadcastInDim S1x1024 ![1] bcast_S1024_S1x1024_1 v0
  let cst_0 : (⟨S_, .f32⟩ : BufTy).Contents (Elt F) := constant S_ .f32 0x44000000#32
  let v2 : (⟨S1x1024, .f32⟩ : BufTy).Contents (Elt F) := broadcastInDim S1x1024 ![] bcast_S_S1x1024 cst_0
  let v3 : (⟨S1x1024, .f32⟩ : BufTy).Contents (Elt F) := Host.divf v1 v2
  let v4 : (⟨S512x1024, .f32⟩ : BufTy).Contents (Elt F) := broadcastInDim S512x1024 ![0, 1] bcast_S1x1024_S512x1024_0_1 v3
  let v5 : (⟨S512x1024, .f32⟩ : BufTy).Contents (Elt F) := subf g v4
  let v6 : (⟨S512x1024, .f32⟩ : BufTy).Contents (Elt F) := mulf v5 v5
  let v7 : (⟨S_, .f32⟩ : BufTy).Contents (Elt F) := sitofp .f32 n
  let cst_1 : (⟨S_, .f32⟩ : BufTy).Contents (Elt F) := constant S_ .f32 0x44000000#32
  let v8 : (⟨S_, .f32⟩ : BufTy).Contents (Elt F) := subf cst_1 v7
  let cst_2 : (⟨S_, .f32⟩ : BufTy).Contents (Elt F) := constant S_ .f32 0x00000000#32
  let v9 : (⟨S1024, .f32⟩ : BufTy).Contents (Elt F) := Host.reduceAdd v6 cst_2 reducesTo_S512x1024_S1024_d0 h_S_
  let v10 : (⟨S1024, .f32⟩ : BufTy).Contents (Elt F) := broadcastInDim S1024 ![] bcast_S_S1024 v8
  let v11 : (⟨S1024, .f32⟩ : BufTy).Contents (Elt F) := Host.divf v9 v10
  let cst_3 : (⟨S_, .f32⟩ : BufTy).Contents (Elt F) := constant S_ .f32 0x00000000#32
  let v12 : (⟨S_, .i1⟩ : BufTy).Contents (Elt F) := cmpf .ogt v8 cst_3
  let cst_4 : (⟨S_, .f32⟩ : BufTy).Contents (Elt F) := constant S_ .f32 0x7FC00000#32
  -- the selection function at (v12, v11, cst_4)
  let x0 : (⟨S_, .f32⟩ : BufTy).Contents (Elt F) := id cst_4
  let x1 : (⟨S1024, .f32⟩ : BufTy).Contents (Elt F) := broadcastInDim S1024 ![] bcast_S_S1024 x0
  select (broadcastInDim S1024 ![] bcast_S_S1024 v12) v11 x1

/-- The normalized rows `(g - mean) / sqrt (var + ε)`, `g` the gathered rows, `mean` the column sum over 512,
    `var` the column variance with zero degrees of freedom taken off: the printed operations `%c … %26`, the
    variance function's in the place of its call. -/
def pre (a0 : (⟨S32x128x1024, .f32⟩ : BufTy).Contents (Elt F)) (a4 a5 : (⟨S512, .i32⟩ : BufTy).Contents (Elt F)) :
    (⟨S512x1024, .f32⟩ : BufTy).Contents (Elt F) :=
  let v13 : (⟨S512x1024, .f32⟩ : BufTy).Contents (Elt F) := rows a0 a4 a5
  let cst : (⟨S_, .f32⟩ : BufTy).Contents (Elt F) := constant S_ .f32 0x00000000#32
  let v14 : (⟨S1024, .f32⟩ : BufTy).Contents (Elt F) := Host.reduceAdd v13 cst reducesTo_S512x1024_S1024_d0 h_S_
  let cst_3 : (⟨S_, .f32⟩ : BufTy).Contents (Elt F) := constant S_ .f32 0x44000000#32
  let v15 : (⟨S1024, .f32⟩ : BufTy).Contents (Elt F) := broadcastInDim S1024 ![] bcast_S_S1024 cst_3
  let v16 : (⟨S1024, .f32⟩ : BufTy).Contents (Elt F) := Host.divf v14 v15
  let c_4 : (⟨S_, .i32⟩ : BufTy).Contents (Elt F) := constantI S_ 32 0#32
  let v17 : (⟨S1024, .f32⟩ : BufTy).Contents (Elt F) := colVar v13 c_4
  let v18 : (⟨S1x1024, .f32⟩ : BufTy).Contents (Elt F) := broadcastInDim S1x1024 ![1] bcast_S1024_S1x1024_1 v16
  let v19 : (⟨S512x1024, .f32⟩ : BufTy).Contents (Elt F) := broadcastInDim S512x1024 ![0, 1] bcast_S1x1024_S512x1024_0_1 v18
  let v20 : (⟨S512x1024, .f32⟩ : BufTy).Contents (Elt F) := subf v13 v19
  let cst_5 : (⟨S_, .f32⟩ : BufTy).Contents (Elt F) := constant S_ .f32 0x3727C5AC#32
  let v21 : (⟨S1024, .f32⟩ : BufTy).Contents (Elt F) := broadcastInDim S1024 ![] bcast_S_S1024 cst_5
  let v22 : (⟨S1024, .f32⟩ : BufTy).Contents (Elt F) := addf v17 v21
  let v23 : (⟨S1024, .f32⟩ : BufTy).Contents (Elt F) := Host.sqrt v22
  let v24 : (⟨S1x1024, .f32⟩ : BufTy).Contents (Elt F) := broadcastInDim S1x1024 ![1] bcast_S1024_S1x1024_1 v23
  let v25 : (⟨S512x1024, .f32⟩ : BufTy).Contents (Elt F) := broadcastInDim S512x1024 ![0, 1] bcast_S1x1024_S512x1024_0_1 v24
  Host.divf v20 v25

/-- The affine layer and its activation: `h0` times the transpose of `a1`, plus `a2` along the rows, then
    `z * (1 / (1 + exp (-z)))`: the printed operations `%27 … %31` and the activation function's nine. -/
def swishRef (h0 : (⟨S512x1024, .f32⟩ : BufTy).Contents (Elt F)) (a1 : (⟨S65536x1024, .f32⟩ : BufTy).Contents (Elt F))
    (a2 : (⟨S65536, .f32⟩ : BufTy).Contents (Elt F)) : (⟨S512x65536, .f32⟩ : BufTy).Contents (Elt F) :=
  let v27 : (⟨S1024x65536, .f32⟩ : BufTy).Contents (Elt F) := transpose S1024x65536 [1, 0] a1 transposes_S65536x1024_S1024x65536_1_0
  let v28 : (⟨S512x65536, .f32⟩ : BufTy).Contents (Elt F) := Host.dotGeneral dot_S512x1024_S1024x65536_S512x65536_1_0_0_1_n_n none h0 v27
  let v29 : (⟨S1x65536, .f32⟩ : BufTy).Contents (Elt F) := broadcastInDim S1x65536 ![1] bcast_S65536_S1x65536_1 a2
  let v30 : (⟨S512x65536, .f32⟩ : BufTy).Contents (Elt F) := broadcastInDim S512x65536 ![0, 1] bcast_S1x65536_S512x65536_0_1 v29
  let v31 : (⟨S512x65536, .f32⟩ : BufTy).Contents (Elt F) := addf v28 v30
  -- the activation function at v31
  let s0 : (⟨S512x65536, .f32⟩ : BufTy).Contents (Elt F) := Host.negf v31
  let s1 : (⟨S512x65536, .f32⟩ : BufTy).Contents (Elt F) := Host.exp s0
  let s_cst : (⟨S_, .f32⟩ : BufTy).Contents (Elt F) := constant S_ .f32 0x3F800000#32
  let s2 : (⟨S512x65536, .f32⟩ : BufTy).Contents (Elt F) := broadcastInDim S512x65536 ![] bcast_S_S512x65536 s_cst
  let s3 : (⟨S512x65536, .f32⟩ : BufTy).Contents (Elt F) := addf s2 s1
  let s_cst_0 : (⟨S_, .f32⟩ : BufTy).Contents (Elt F) := constant S_ .f32 0x3F800000#32
  let s4 : (⟨S512x65536, .f32⟩ : BufTy).Contents (Elt F) := broadcastInDim S512x65536 ![] bcast_S_S512x65536 s_cst_0
  let s5 : (⟨S512x65536, .f32⟩ : BufTy).Contents (Elt F) := Host.divf s4 s3
  mulf v31 s5

/-- The sparse matrix product on the transposed activations `x`: entry `e` has row `a6 (0, e)`, column `a6 (1, e)`
    (a negative column first moved up by 65536) and value `a3 e`; the rows of `x` at the columns are gathered,
    scaled by the values, and added into a zero matrix at the rows: the printed operations `%33 … %36`,
    `%c_6 … %50`. -/
def spmm (x : (⟨S65536x512, .f32⟩ : BufTy).Contents (Elt F)) (a3 : (⟨S262144, .f32⟩ : BufTy).Contents (Elt F))
    (a6 : (⟨S2x262144, .i32⟩ : BufTy).Contents (Elt F)) : (⟨S65536x512, .f32⟩ : BufTy).Contents (Elt F) :=
  let v33 : (⟨S1x262144, .i32⟩ : BufTy).Contents (Elt F) := extractStridedSlice S1x262144 ![0, 0] a6 slices_S2x262144_S1x262144_0_0
  let v34 : (⟨S262144, .i32⟩ : BufTy).Contents (Elt F) := shapeCast S262144 v33 shapeCasts_S1x262144_S262144
  let v35 : (⟨S1x262144, .i32⟩ : BufTy).Contents (Elt F) := extractStridedSlice S1x262144 ![1, 0] a6 slices_S2x262144_S1x262144_1_0
  let v36 : (⟨S262144, .i32⟩ : BufTy).Contents (Elt F) := shapeCast S262144 v35 shapeCasts_S1x262144_S262144
  let c_6 : (⟨S_, .i32⟩ : BufTy).Contents (Elt F) := constantI S_ 32 0#32
  let v38 : (⟨S262144, .i32⟩ : BufTy).Contents (Elt F) := broadcastInDim S262144 ![] bcast_S_S262144 c_6
  let v39 : (⟨S262144, .i1⟩ : BufTy).Contents (Elt F) := cmpi .slt v36 v38
  let c_7 : (⟨S_, .i32⟩ : BufTy).Contents (Elt F) := constantI S_ 32 65536#32
  let v40 : (⟨S262144, .i32⟩ : BufTy).Contents (Elt F) := broadcastInDim S262144 ![] bcast_S_S262144 c_7
  let v41 : (⟨S262144, .i32⟩ : BufTy).Contents (Elt F) := addi v36 v40
  let v42 : (⟨S262144, .i32⟩ : BufTy).Contents (Elt F) := select v39 v41 v36
  let v43 : (⟨S262144x1, .i32⟩ : BufTy).Contents (Elt F) := broadcastInDim S262144x1 ![0] bcast_S262144_S262144x1_0 v42
  let v44 : (⟨S262144x512, .f32⟩ : BufTy).Contents (Elt F) := Host.gather gather_S65536x512_S262144x1_S262144x512_1_0_n_n_0_1_1512 x v43
  let v45 : (⟨S262144x1, .f32⟩ : BufTy).Contents (Elt F) := broadcastInDim S262144x1 ![0] bcast_S262144_S262144x1_0 a3
  let v46 : (⟨S262144x512, .f32⟩ : BufTy).Contents (Elt F) := broadcastInDim S262144x512 ![0, 1] bcast_S262144x1_S262144x512_0_1 v45
  let v47 : (⟨S262144x512, .f32⟩ : BufTy).Contents (Elt F) := mulf v44 v46
  let cst_8 : (⟨S_, .f32⟩ : BufTy).Contents (Elt F) := constant S_ .f32 0x00000000#32
  let v48 : (⟨S65536x512, .f32⟩ : BufTy).Contents (Elt F) := broadcastInDim S65536x512 ![] bcast_S_S65536x512 cst_8
  let v49 : (⟨S262144x1, .i32⟩ : BufTy).Contents (Elt F) := broadcastInDim S262144x1 ![0] bcast_S262144_S262144x1_0 v34
  Host.scatterAdd scatter_S65536x512_S262144x1_S262144x512_1_0_0_1 v48 v49 v47

/-- The result: the sparse product of the transposed activations, transposed back, plus the activations. -/
def refOut (a0 : (⟨S32x128x1024, .f32⟩ : BufTy).Contents (Elt F)) (a1 : (⟨S65536x1024, .f32⟩ : BufTy).Contents (Elt F))
    (a2 : (⟨S65536, .f32⟩ : BufTy).Contents (Elt F)) (a3 : (⟨S262144, .f32⟩ : BufTy).Contents (Elt F))
    (a4 a5 : (⟨S512, .i32⟩ : BufTy).Contents (Elt F)) (a6 : (⟨S2x262144, .i32⟩ : BufTy).Contents (Elt F)) :
    (⟨S512x65536, .f32⟩ : BufTy).Contents (Elt F) :=
  let h1 := swishRef (pre a0 a4 a5) a1 a2
  addf (transpose S512x65536 [1, 0] (spmm (transpose S65536x512 [1, 0] h1 transposes_S512x65536_S65536x512_1_0) a3 a6)
    transposes_S65536x512_S512x65536_1_0) h1

attribute [local irreducible] Host.gather Host.scatterAdd Host.reduceAdd in
set_option maxRecDepth 8192 in
set_option maxHeartbeats 4000000 in
/-- After the line the result buffer holds `refOut` of the arguments and each argument buffer what it held: each
    operation's result read at its own buffer is its function of its operands' contents, at any other buffer what was
    there; the composed term at the result buffer is `refOut`'s by unfolding the stages. -/
theorem after_eq (V : Valuation τ sig (Elt F)) :
    after ops V (main_v52 : DevRef τ sig)
        = refOut (V (main_arg0 : DevRef τ sig)) (V (main_arg1 : DevRef τ sig)) (V (main_arg2 : DevRef τ sig)) (V (main_arg3 : DevRef τ sig))
            (V (main_arg4 : DevRef τ sig)) (V (main_arg5 : DevRef τ sig)) (V (main_arg6 : DevRef τ sig))
      ∧ after ops V (main_arg0 : DevRef τ sig) = V (main_arg0 : DevRef τ sig)
      ∧ after ops V (main_arg1 : DevRef τ sig) = V (main_arg1 : DevRef τ sig)
      ∧ after ops V (main_arg2 : DevRef τ sig) = V (main_arg2 : DevRef τ sig)
      ∧ after ops V (main_arg3 : DevRef τ sig) = V (main_arg3 : DevRef τ sig)
      ∧ after ops V (main_arg4 : DevRef τ sig) = V (main_arg4 : DevRef τ sig)
      ∧ after ops V (main_arg5 : DevRef τ sig) = V (main_arg5 : DevRef τ sig)
      ∧ after ops V (main_arg6 : DevRef τ sig) = V (main_arg6 : DevRef τ sig) := by
  after_results_simp
  refine ⟨?_, ?_, ?_, ?_, ?_, ?_, ?_, ?_⟩ <;> first | rfl | trivial

/-- On every device, for any float values, from any memory with zero counters: every weakly fair execution of
    `@main` terminates with the result buffer at `refOut` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v52).trans (after_eq _).1,
      (h c main_arg0).trans (after_eq _).2.1,
      (h c main_arg1).trans (after_eq _).2.2.1,
      (h c main_arg2).trans (after_eq _).2.2.2.1,
      (h c main_arg3).trans (after_eq _).2.2.2.2.1,
      (h c main_arg4).trans (after_eq _).2.2.2.2.2.1,
      (h c main_arg5).trans (after_eq _).2.2.2.2.2.2.1,
      (h c main_arg6).trans (after_eq _).2.2.2.2.2.2.2⟩)
    (run_seq scopedRefs_eq scopedSems_eq defs main (fun _ => ops) main_eq (fun _ => ops_sub) m ρ)

end Cert.ReferenceIdeal.RefRun

end
-- ==== Proof.BridgeStages.lean ====
/-
  The stages the two programs share are the same functions.

  Both programs pick the same 512 rows (`rows_eq`), take the same per-feature variance (`colVar_eq`), normalise the same
  way (`pre_eq`) and apply the same sparse product (`spmm_eq`): in each pair the two sides are the same operations, with
  the same constants, in the same order, written over the two programs' own (equal) shape names — so each equation
  holds by unfolding the definitions, the large operations never opened. The bias laid out as a column reads, in row r,
  the bias at r (`biasColumn_apply`).
-/
import proofs.«158608_j81037442941606_2_alg».proof.Proof.KernelRun
import proofs.«158608_j81037442941606_2_alg».proof.Proof.RefRun
import Idealize.ShloMosaic.Lib.ValueLayout

noncomputable section

namespace Cert.Proof.Bridge

open Idealize.ShloMosaic Idealize.ShloMosaic.ValueIdx

attribute [local irreducible] Host.gather Host.scatterAdd Host.reduceAdd concatenate in
/-- The picked rows. -/
theorem rows_eq (a0 : (⟨Cert.ReferenceIdeal.S32x128x1024, .f32⟩ : BufTy).Contents (Elt Ideal)) (a4 a5 : (⟨Cert.ReferenceIdeal.S512, .i32⟩ : BufTy).Contents (Elt Ideal)) :
    Cert.ReferenceIdeal.RefRun.rows (F := Ideal) a0 a4 a5 = Cert.KernelIdeal.Host.picked (F := Ideal) a0 a4 a5 := rfl

attribute [local irreducible] Host.gather Host.scatterAdd Host.reduceAdd concatenate in
/-- The per-feature variance with a correction. -/
theorem colVar_eq (g : (⟨Cert.ReferenceIdeal.S512x1024, .f32⟩ : BufTy).Contents (Elt Ideal)) (n : (⟨Cert.ReferenceIdeal.S_, .i32⟩ : BufTy).Contents (Elt Ideal)) :
    Cert.ReferenceIdeal.RefRun.colVar (F := Ideal) g n = Cert.KernelIdeal.Host.featureVarWith (F := Ideal) g n := rfl

attribute [local irreducible] Host.gather Host.scatterAdd Host.reduceAdd concatenate in
/-- The picked and normalised rows. -/
theorem pre_eq (a0 : (⟨Cert.ReferenceIdeal.S32x128x1024, .f32⟩ : BufTy).Contents (Elt Ideal)) (a4 a5 : (⟨Cert.ReferenceIdeal.S512, .i32⟩ : BufTy).Contents (Elt Ideal)) :
    Cert.ReferenceIdeal.RefRun.pre (F := Ideal) a0 a4 a5 = Cert.KernelIdeal.Host.normalised (F := Ideal) (Cert.KernelIdeal.Host.picked a0 a4 a5) := by
  simp only [Cert.ReferenceIdeal.RefRun.pre, rows_eq, colVar_eq]
  rfl

attribute [local irreducible] Host.gather Host.scatterAdd Host.reduceAdd concatenate in
/-- The sparse product. -/
theorem spmm_eq (x : (⟨Cert.ReferenceIdeal.S65536x512, .f32⟩ : BufTy).Contents (Elt Ideal)) (a3 : (⟨Cert.ReferenceIdeal.S262144, .f32⟩ : BufTy).Contents (Elt Ideal))
    (a6 : (⟨Cert.ReferenceIdeal.S2x262144, .i32⟩ : BufTy).Contents (Elt Ideal)) :
    Cert.ReferenceIdeal.RefRun.spmm (F := Ideal) x a3 a6 = Cert.KernelIdeal.Host.sparseApply (F := Ideal) x a3 a6 := rfl

/-- The bias column at (r, 0) is the bias at r. -/
theorem biasColumn_apply (a2 : (⟨Cert.KernelIdeal.S65536, .f32⟩ : BufTy).Contents (Elt Ideal)) (r : Fin 65536) :
    Cert.KernelIdeal.Host.biasColumn (F := Ideal) a2 (ix2 r (0 : Fin 1)) = a2 (ix1 r) := by
  unfold Cert.KernelIdeal.Host.biasColumn
  refine broadcastInDim_apply _ _ a2 (ix2 r (0 : Fin 1)) (ix1 r) fun ax => ?_
  match ax with
  | ⟨0, _⟩ => rfl

end Cert.Proof.Bridge

end
-- ==== Proof.RefValue.lean ====
import proofs.«158608_j81037442941606_2_alg».proof.Proof.RefRun
import Idealize.ShloMosaic.PureOps.Ideal.Laws
import Idealize.ShloMosaic.Lib.ValueIdx
import Idealize.ShloMosaic.Lib.Pipeline.Value
import Idealize.ShloMosaic.Lib.StackMember

/-!
# The reference's affine layer and activation, read at an index

At the ideal values — a float an extended real, every operation exact — the stage `swishRef` of the reference at
row `n` and column `k` is `z * logistic z`, where `z` is the sum over the 1024 features of the row of `h0` against
the row `k` of the weights, plus the bias at `k`.
-/

noncomputable section

namespace Cert.ReferenceIdeal.RefValue

open Cert.ReferenceIdeal Cert.ReferenceIdeal.Gen Idealize.ShloMosaic Idealize.ShloMosaic.ValueIdx
open scoped BigOperators

/-- The binary32 pattern `0x3F800000` denotes one. -/
theorem ofBits_one_f32 : Ideal.ofBits .f32 0x3F800000#32 = 1 := by
  simp [Ideal.ofBits, Ideal.ieee, -EReal.coe_mul]
  norm_num

/-- The activation at an index: `z * (1 / (1 + exp (-z)))` with both ones the splat of the pattern of one is
    `z * logistic z` (the logistic function is by definition `1 / (1 + exp (-z))` on the extended reals). -/
theorem silu_apply (z : FVec Ideal S512x65536 .f32) (i : S512x65536.Idx) :
    mulf (F := Ideal) z (Host.divf (F := Ideal) (broadcastInDim S512x65536 ![] bcast_S_S512x65536 (constant (F := Ideal) S_ .f32 0x3F800000#32))
      (addf (F := Ideal) (broadcastInDim S512x65536 ![] bcast_S_S512x65536 (constant (F := Ideal) S_ .f32 0x3F800000#32))
        (Host.exp (F := Ideal) (Host.negf (F := Ideal) z)))) i = z i * Ideal.logistic (z i) := by
  show z i * Ideal.div (Ideal.ofBits .f32 0x3F800000#32) (Ideal.ofBits .f32 0x3F800000#32 + Ideal.exp (-(z i))) = _
  rw [ofBits_one_f32]
  rfl

/-- The affine layer at an index: the product with the transposed weights is the sum over the contracted coordinate of
    the products of the entries, the bias broadcast along the rows is the bias at the column. -/
theorem affine_apply (h0 : FVec Ideal S512x1024 .f32) (a1 : FVec Ideal S65536x1024 .f32)
    (a2 : FVec Ideal S65536 .f32) (n : Fin 512) (k : Fin 65536) :
    ((addf (F := Ideal) (Host.dotGeneral (F := Ideal) dot_S512x1024_S1024x65536_S512x65536_1_0_0_1_n_n none h0 (transpose S1024x65536 [1, 0] a1 transposes_S65536x1024_S1024x65536_1_0))
      (broadcastInDim S512x65536 ![0, 1] bcast_S1x65536_S512x65536_0_1 (broadcastInDim S1x65536 ![1] bcast_S65536_S1x65536_1 a2)) :
      FVec Ideal S512x65536 .f32)) (ix2 n k)
      = (∑ d : Fin 1024, h0 (ix2 n d) * a1 (ix2 k d)) + a2 (ix1 k) := by
  rw [addf_apply]
  congr 1
  · refine (StackMember.dotGeneral_plain_apply (m := 512) (n := 65536) (k := 1024) none h0
      (transpose S1024x65536 [1, 0] a1 transposes_S65536x1024_S1024x65536_1_0) n k).trans ?_
    refine Finset.sum_congr rfl fun c _ => ?_
    refine congrArg (h0 (ix2 n c) * ·) ?_
    exact transpose_apply [1, 0] a1 transposes_S65536x1024_S1024x65536_1_0 (ix2 c k) (ix2 k c)
      (fun b => match b with | ⟨0, _⟩ => rfl | ⟨1, _⟩ => rfl)
  · refine (broadcastInDim_apply ![0, 1] bcast_S1x65536_S512x65536_0_1 _ (ix2 n k) (ix2 (0 : Fin 1) k)
      (fun a => match a with | ⟨0, _⟩ => rfl | ⟨1, _⟩ => rfl)).trans ?_
    exact broadcastInDim_apply ![1] bcast_S65536_S1x65536_1 a2 (ix2 (0 : Fin 1) k) (ix1 k)
      (fun a => match a with | ⟨0, _⟩ => rfl)

/-- The affine layer and its activation at an index: with `z` the row of `h0` against the row of `a1` plus the bias,
    `z * logistic z`. -/
theorem swishRef_apply (h0 : FVec Ideal S512x1024 .f32) (a1 : FVec Ideal S65536x1024 .f32)
    (a2 : FVec Ideal S65536 .f32) (n : Fin 512) (k : Fin 65536) :
    RefRun.swishRef (F := Ideal) h0 a1 a2 (ix2 n k)
      = (((∑ d : Fin 1024, h0 (ix2 n d) * a1 (ix2 k d)) + a2 (ix1 k))
          * Ideal.logistic ((∑ d : Fin 1024, h0 (ix2 n d) * a1 (ix2 k d)) + a2 (ix1 k))) := by
  refine (silu_apply ((addf (F := Ideal) (Host.dotGeneral (F := Ideal) dot_S512x1024_S1024x65536_S512x65536_1_0_0_1_n_n none h0 (transpose S1024x65536 [1, 0] a1 transposes_S65536x1024_S1024x65536_1_0))
      (broadcastInDim S512x65536 ![0, 1] bcast_S1x65536_S512x65536_0_1 (broadcastInDim S1x65536 ![1] bcast_S65536_S1x65536_1 a2)) :
      FVec Ideal S512x65536 .f32)) (ix2 n k)).trans ?_
  exact congrArg (fun z => z * Ideal.logistic z) (affine_apply h0 a1 a2 n k)

end Cert.ReferenceIdeal.RefValue

end
-- ==== Proof.Bridge.lean ====
/-
  The two programs compute one function of their arguments.

  Both pick the same 512 rows and normalise them the same way, and both apply the same sparse product (the module of
  the shared stages: `pre_eq`, `spmm_eq`). Between the two, the kernel program computes the activations
  transposed: its entry (r, n) is  z · σ z  with  z = Σ_d w(r, d) · h(n, d) + b(r),  the reference's entry (n, r) is
  z' · σ z'  with  z' = Σ_d h(n, d) · w(r, d) + b(r);  z = z' because multiplication of extended reals commutes, term by
  term under the same finite sum (no finiteness of the inputs is used). So the reference's activations transposed ARE the
  kernel's array (`act_transposed`), the two sparse products are of the same array, and

      transpose (S + x)  =  transpose S + transpose x      entry by entry,

  where transpose x is the reference's own activations.
-/
import proofs.«158608_j81037442941606_2_alg».proof.Proof.BridgeStages
import proofs.«158608_j81037442941606_2_alg».proof.Proof.RefValue

noncomputable section

namespace Cert.Proof.Bridge

open Idealize.ShloMosaic Idealize.ShloMosaic.ValueIdx

/-! ## The activations: the reference's, transposed, are the kernel's array -/

theorem act_transposed (a0 : (⟨Cert.ReferenceIdeal.S32x128x1024, .f32⟩ : BufTy).Contents (Elt Ideal)) (a1 : (⟨Cert.ReferenceIdeal.S65536x1024, .f32⟩ : BufTy).Contents (Elt Ideal))
    (a2 : (⟨Cert.ReferenceIdeal.S65536, .f32⟩ : BufTy).Contents (Elt Ideal)) (a3 : (⟨Cert.ReferenceIdeal.S262144, .f32⟩ : BufTy).Contents (Elt Ideal))
    (a4 a5 : (⟨Cert.ReferenceIdeal.S512, .i32⟩ : BufTy).Contents (Elt Ideal)) (a6 : (⟨Cert.ReferenceIdeal.S2x262144, .i32⟩ : BufTy).Contents (Elt Ideal)) (n : Fin 512) (r : Fin 65536) :
    Cert.ReferenceIdeal.RefRun.swishRef (F := Ideal) (Cert.ReferenceIdeal.RefRun.pre a0 a4 a5) a1 a2 (ix2 n r)
      = Cert.KernelIdeal.Swish.whole (Cert.KernelIdeal.Host.activations (F := Ideal) a0 a4 a5) a1 (Cert.KernelIdeal.Host.biasColumn (F := Ideal) a2) (ix2 r n) := by
  rw [Cert.ReferenceIdeal.RefValue.swishRef_apply, Cert.KernelIdeal.Swish.whole_ix2, pre_eq]
  unfold Cert.KernelIdeal.Swish.entry Cert.KernelIdeal.Swish.act
  have hz : (∑ d : Fin 1024, Cert.KernelIdeal.Host.normalised (F := Ideal) (Cert.KernelIdeal.Host.picked a0 a4 a5) (ix2 n d) * a1 (ix2 r d)) + a2 (ix1 r)
      = (∑ d : Fin 1024, a1 (ix2 r d) * Cert.KernelIdeal.Host.activations (F := Ideal) a0 a4 a5 (ix2 n d))
          + Cert.KernelIdeal.Host.biasColumn (F := Ideal) a2 (ix2 r (0 : Fin 1)) := by
    rw [biasColumn_apply]
    refine congrArg (· + a2 (ix1 r)) (Finset.sum_congr rfl fun d _ => ?_)
    exact mul_comm _ _
  rw [hz]

/-! ## The results -/

/-- Transposing a sum: if y is x transposed, then the transpose of S + x is the transpose of S, plus y. -/
theorem transpose_add (S x : FVec Ideal Cert.KernelIdeal.S65536x512 .f32) (y : FVec Ideal Cert.KernelIdeal.S512x65536 .f32)
    (h₁ h₂ : Cert.KernelIdeal.S65536x512.Transposes [1, 0] Cert.KernelIdeal.S512x65536)
    (hy : ∀ (n : Fin 512) (r : Fin 65536), y (ix2 n r) = x (ix2 r n)) :
    transpose Cert.KernelIdeal.S512x65536 [1, 0] (addf (F := Ideal) S x) h₁ = addf (F := Ideal) (transpose Cert.KernelIdeal.S512x65536 [1, 0] S h₂) y := by
  funext i
  obtain ⟨n, r, rfl⟩ : ∃ (n : Fin 512) (r : Fin 65536), i = ix2 n r := ⟨i 0, i 1, eq_ix2 i⟩
  rw [transpose_ix2_apply, addf_apply, addf_apply, transpose_ix2_apply, hy]

/-- The reference's activations, transposed, are the kernel's whole array. -/
theorem act_transposed_array (a0 : (⟨Cert.ReferenceIdeal.S32x128x1024, .f32⟩ : BufTy).Contents (Elt Ideal)) (a1 : (⟨Cert.ReferenceIdeal.S65536x1024, .f32⟩ : BufTy).Contents (Elt Ideal))
    (a2 : (⟨Cert.ReferenceIdeal.S65536, .f32⟩ : BufTy).Contents (Elt Ideal)) (a3 : (⟨Cert.ReferenceIdeal.S262144, .f32⟩ : BufTy).Contents (Elt Ideal))
    (a4 a5 : (⟨Cert.ReferenceIdeal.S512, .i32⟩ : BufTy).Contents (Elt Ideal)) (a6 : (⟨Cert.ReferenceIdeal.S2x262144, .i32⟩ : BufTy).Contents (Elt Ideal)) (h : Cert.ReferenceIdeal.S512x65536.Transposes [1, 0] Cert.ReferenceIdeal.S65536x512) :
    transpose Cert.ReferenceIdeal.S65536x512 [1, 0] (Cert.ReferenceIdeal.RefRun.swishRef (F := Ideal) (Cert.ReferenceIdeal.RefRun.pre a0 a4 a5) a1 a2) h
      = Cert.KernelIdeal.Swish.whole (Cert.KernelIdeal.Host.activations (F := Ideal) a0 a4 a5) a1 (Cert.KernelIdeal.Host.biasColumn (F := Ideal) a2) := by
  funext i
  obtain ⟨r, n, rfl⟩ : ∃ (r : Fin 65536) (n : Fin 512), i = ix2 r n := ⟨i 0, i 1, eq_ix2 i⟩
  rw [transpose_ix2_apply]
  exact act_transposed a0 a1 a2 a3 a4 a5 a6 n r

/-- THE BRIDGE: the kernel program's result function is the reference's. -/
theorem out_eq (a0 : (⟨Cert.ReferenceIdeal.S32x128x1024, .f32⟩ : BufTy).Contents (Elt Ideal)) (a1 : (⟨Cert.ReferenceIdeal.S65536x1024, .f32⟩ : BufTy).Contents (Elt Ideal))
    (a2 : (⟨Cert.ReferenceIdeal.S65536, .f32⟩ : BufTy).Contents (Elt Ideal)) (a3 : (⟨Cert.ReferenceIdeal.S262144, .f32⟩ : BufTy).Contents (Elt Ideal))
    (a4 a5 : (⟨Cert.ReferenceIdeal.S512, .i32⟩ : BufTy).Contents (Elt Ideal)) (a6 : (⟨Cert.ReferenceIdeal.S2x262144, .i32⟩ : BufTy).Contents (Elt Ideal)) :
    Cert.KernelIdeal.Swish.out a0 a1 a2 a3 a4 a5 a6 = Cert.ReferenceIdeal.RefRun.refOut (F := Ideal) a0 a1 a2 a3 a4 a5 a6 := by
  unfold Cert.KernelIdeal.Swish.out Cert.ReferenceIdeal.RefRun.refOut Cert.KernelIdeal.Host.result
  simp only [act_transposed_array a0 a1 a2 a3 a4 a5 a6, spmm_eq]
  exact transpose_add _ _ _ _ _ (fun n r => act_transposed a0 a1 a2 a3 a4 a5 a6 n r)

end Cert.Proof.Bridge

end
-- ==== Proof.lean ====
/-
  The certificate of a gathered, batch-normalised linear layer with a z · σ z activation, followed by a sparse matrix
  product and a residual sum, against its plain array-language reference.

  Mathematics. With g the 512 rows enc_out[batch_idx[n], tgt[n], :], h = (g - mean g) / sqrt (var g + ε) feature by
  feature, w the [65536, 1024] weights and b the bias, both programs compute

      result(n, r) = S(r, n) + a(r, n),      a(r, n) = z · σ z,   z = Σ_d w(r, d) · h(n, d) + b(r),

  where S is the sparse matrix applied to the rows of a (value[k] · a(col[k], :) added into row row[k]).
  The kernel program computes a directly as a [65536, 512] array, 64 blocks of 1024 rows, one block per grid point,
  adds S and transposes once at the end; the reference computes the [512, 65536] transpose of a, transposes it for the
  sparse product, transposes the product back and adds. On the extended reals the two agree entry by entry: the
  narrowing of h to the kernel's input format is the identity there, the kernel's matrix product into a zero
  accumulator and the reference's contraction are the same finite sum up to the order of the two factors, and
  σ z = 1 / (1 + e^(-z)) is one function however it is spelt. No finiteness of the inputs is needed for the equality.

  The three frames: the kernel program's two (as printed and idealized) are its frame run; the reference's is its run
  with the result forgotten. The idealized kernel program is the printed one read at the extended reals (no rewrite), so
  the preservation claim is trivial.
-/
import proofs.«158608_j81037442941606_2_alg».proof.Defs
import proofs.«158608_j81037442941606_2_alg».proof.Proof.Gen.Kernel
import proofs.«158608_j81037442941606_2_alg».proof.Proof.Gen.Kernel.Skeleton
import proofs.«158608_j81037442941606_2_alg».proof.Proof.Gen.Kernel.Launch
import proofs.«158608_j81037442941606_2_alg».proof.Proof.Gen.Kernel.Points
import proofs.«158608_j81037442941606_2_alg».proof.Proof.Gen.Kernel.Frame
import proofs.«158608_j81037442941606_2_alg».proof.Proof.Gen.KernelIdeal
import proofs.«158608_j81037442941606_2_alg».proof.Proof.Gen.KernelIdeal.Skeleton
import proofs.«158608_j81037442941606_2_alg».proof.Proof.Gen.KernelIdeal.Launch
import proofs.«158608_j81037442941606_2_alg».proof.Proof.Gen.KernelIdeal.Points
import proofs.«158608_j81037442941606_2_alg».proof.Proof.Gen.KernelIdeal.Frame
import proofs.«158608_j81037442941606_2_alg».proof.Proof.Gen.ReferenceIdeal
import proofs.«158608_j81037442941606_2_alg».proof.Proof.Gen.Pre_finite_inputs
import proofs.«158608_j81037442941606_2_alg».proof.Proof.KernelRun
import proofs.«158608_j81037442941606_2_alg».proof.Proof.RefRun
import proofs.«158608_j81037442941606_2_alg».proof.Proof.Bridge
import Idealize.ShloMosaic.Adequacy
import Idealize.ShloMosaic.Init

noncomputable section

namespace Cert.Proof

open Idealize.ShloMosaic Idealize.SL.Sem

/-- The printed kernel program runs and leaves its arguments as they were. -/
theorem frame_printed : Cert.frame_Kernel := fun m ρ _ => Cert.Kernel.Gen.frame m ρ

/-- So does the idealized one. -/
theorem frame_ideal : Cert.frame_KernelIdeal := fun m ρ _ => Cert.KernelIdeal.Gen.frame m ρ

/-- The reference runs and leaves its arguments as they were: its run, the result forgotten. -/
theorem frame_reference : Cert.frame_ReferenceIdeal := fun m ρ _ =>
  (θ_run Cert.ReferenceIdeal.defs _ _).mono (fun _ h c => (h c).2) (Cert.ReferenceIdeal.RefRun.run (F := Ideal) m ρ)

/-- The idealized kernel program is the printed text read at the extended reals: nothing to preserve. -/
theorem preserves : Cert.preserves_Kernel_KernelIdeal := trivial

/-- From memories that agree on the arguments both programs end with the same result: the kernel program's run ends at
    its result function of the arguments, the reference's at its own, and the two functions are one. -/
theorem algebraic : Cert.algebraic_KernelIdeal_ReferenceIdeal := by
  intro m ρ m' ρ' _ hagree
  refine ⟨fun c => Cert.KernelIdeal.Swish.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), Cert.KernelIdeal.Swish.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6⟩ := hagree c
  rw [e0, e1, e2, e3, e4, e5, e6]
  exact (Cert.Proof.Bridge.out_eq _ _ _ _ _ _ _).symm

theorem claim : Cert.Claim :=
  ⟨Cert.Kernel.Gen.facts, Cert.KernelIdeal.Gen.facts, Cert.ReferenceIdeal.Gen.facts, Cert.Pre_finite_inputs.Gen.facts,
    frame_printed, frame_ideal, frame_reference, preserves, algebraic⟩

end Cert.Proof

end
